-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S64x1024 : Shape := ⟨2, ![64, 1024]⟩
abbrev S1024x64 : Shape := ⟨2, ![1024, 64]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_arg4 : FVec F S1024x64 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S1024x64 .f32 := Host.absf main_arg4
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  main_v23

def fn {F : FTy → Type} [FloatOps F] (main_arg0 : FVec F S4x8192x1024 .f32) (main_arg1 : FVec F S64x1024 .f32) (main_arg2 : FVec F S64x1024 .f32) (main_arg3 : FVec F S64x1024 .f32) (main_arg4 : FVec F S1024x64 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_v13 main_v16
-- ==== Kernel.lean ====
abbrev S4x8192x1024 : Shape := ⟨3, ![4, 8192, 1024]⟩
abbrev S64x1024 : Shape := ⟨2, ![64, 1024]⟩
abbrev S1024x64 : Shape := ⟨2, ![1024, 64]⟩
abbrev S1x2048x1024 : Shape := ⟨3, ![1, 2048, 1024]⟩
abbrev S8192x64 : Shape := ⟨2, ![8192, 64]⟩
abbrev S64x64 : Shape := ⟨2, ![64, 64]⟩
abbrev S2048x1024 : Shape := ⟨2, ![2048, 1024]⟩
abbrev S2048x64 : Shape := ⟨2, ![2048, 64]⟩
abbrev S64x2048 : Shape := ⟨2, ![64, 2048]⟩

abbrev nBuf : Space → Nat
  | .hbm => 6
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S1024x64, .f32⟩
  | .hbm, ⟨5, _⟩ => ⟨S4x8192x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S1024x64, .f32⟩
  | .local _ .vmem, ⟨6, _⟩ => ⟨S1x2048x1024, .f32⟩
  | .local _ .vmem, ⟨7, _⟩ => ⟨S1x2048x1024, .f32⟩
  | .local _ .vmem, ⟨8, _⟩ => ⟨S8192x64, .f32⟩
  | .local _ .vmem, ⟨9, _⟩ => ⟨S64x64, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult1 (i : grid0.Coords) : BitVec 32 :=
  let arg2 : BitVec 32 := BitVec.ofNat 32 (i 2).val
  let c2048_i32 : BitVec 32 := 2048#32
  let v26 : BitVec 32 := Scalar.muli arg2 c2048_i32
  v26
def k0_off1 (i : grid0.Coords) : Fin 2 → Nat :=
  let arg2 : BitVec 32 := BitVec.ofNat 32 (i 2).val
  let c2048_i32 : BitVec 32 := 2048#32
  let v26 : BitVec 32 := Scalar.muli arg2 c2048_i32
  let v27 : BitVec 32 := v26
  let v28 : Index := Scalar.indexCast v27
  let c0_15 : Index := 0#32
  ![v28.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def k0_mult2 (i : grid0.Coords) : BitVec 32 :=
  let arg2 : BitVec 32 := BitVec.ofNat 32 (i 2).val
  let c2048_i32 : BitVec 32 := 2048#32
  let v11 : BitVec 32 := Scalar.muli arg2 c2048_i32
  v11
def k0_off2 (i : grid0.Coords) : Fin 2 → Nat :=
  let arg2 : BitVec 32 := BitVec.ofNat 32 (i 2).val
  let c2048_i32 : BitVec 32 := 2048#32
  let v11 : BitVec 32 := Scalar.muli arg2 c2048_i32
  let v12 : BitVec 32 := v11
  let v13 : Index := Scalar.indexCast v12
  let c0 : Index := 0#32
  ![v13.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c3_i32 : BitVec 32 := 3#32
  let v1 : BitVec 32 := Scalar.select v0 arg2 c3_i32
  let c0_i32_0 : BitVec 32 := 0#32
  let c0_i32_1 : BitVec 32 := 0#32
  ![arg0.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg1 c1_i32
  let c0_i32 : BitVec 32 := 0#32
  let v1 : BitVec 32 := Scalar.select v0 arg2 c0_i32
  let c0_i32_0 : BitVec 32 := 0#32
  let c0_i32_1 : BitVec 32 := 0#32
  ![arg0.toNat, v1.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  transposes_S64x1024_p1_0_S1024x64 : S64x1024.Transposes [1, 0] S1024x64
  h_S2048x64 : 0 < S2048x64.numel
  shapeCasts_S2048x64_S2048x64 : S2048x64.ShapeCasts S2048x64
  transposes_S2048x64_p1_0_S64x2048 : S2048x64.Transposes [1, 0] S64x2048
  inb_S1024x64_S1024x64_0_0 : ∀ a, (![0, 0] : Fin 2 → Nat) a + S1024x64.size a ≤ S1024x64.size a
  h_S1024x64 : 0 < S1024x64.numel
  transposes_S1024x64_p1_0_S64x1024 : S1024x64.Transposes [1, 0] S64x1024
  shapeCasts_S2048x1024_S1x2048x1024 : S2048x1024.ShapeCasts S1x2048x1024
  dot_S2048x1024_S1024x64_S2048x64_1_0_0_1_n_n_wf : DotDims.WF S2048x1024 S1024x64 S2048x64 [1] [0] [0] [1] [] []
  dot_S64x2048_S2048x64_S64x64_1_0_0_1_n_n_wf : DotDims.WF S64x2048 S2048x64 S64x64 [1] [0] [0] [1] [] []
  dot_S2048x64_S64x64_S2048x64_1_0_0_1_n_n_wf : DotDims.WF S2048x64 S64x64 S2048x64 [1] [0] [0] [1] [] []
  dot_S2048x64_S64x1024_S2048x1024_1_0_0_1_n_n_wf : DotDims.WF S2048x64 S64x1024 S2048x1024 [1] [0] [0] [1] [] []
  hrank0 : 0 < grid0.rank
  k0_mult1_dvd : ∀ i : grid0.Coords, ∀ (k0_h2 : k0_cond2 i = 1#1), 2048 ∣ (k0_mult1 i).toNat
  k0_off1_inb : ∀ i : grid0.Coords, ∀ (k0_h2 : k0_cond2 i = 1#1), ∀ a, (k0_off1 i) a + S2048x64.size a ≤ S8192x64.size a
  k0_mult2_dvd : ∀ i : grid0.Coords, ∀ (k0_h3 : k0_cond3 i = 1#1), 2048 ∣ (k0_mult2 i).toNat
  k0_off2_inb : ∀ i : grid0.Coords, ∀ (k0_h3 : k0_cond3 i = 1#1), ∀ a, (k0_off2 i) a + S2048x64.size a ≤ S8192x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x8192x1024.size a
  hwx0_0 : ∀ i : grid0.Coords, EltTy.bits .f32 = 32 ∨ (Rect.block (s := S4x8192x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x1024.size a
  hwx0_2 : ∀ i : grid0.Coords, EltTy.bits .f32 = 32 ∨ (Rect.block (s := S64x1024) S64x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x1024.size a
  hwx0_3 : ∀ i : grid0.Coords, EltTy.bits .f32 = 32 ∨ (Rect.block (s := S64x1024) S64x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S1024x64.size a
  hwx0_4 : ∀ i : grid0.Coords, EltTy.bits .f32 = 32 ∨ (Rect.block (s := S1024x64) S1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x1024.size a ≤ S4x8192x1024.size a
  hwx0_5 : ∀ i : grid0.Coords, EltTy.bits .f32 = 32 ∨ (Rect.block (s := S4x8192x1024) S1x2048x1024.size (cc0_transform_5 i) (hinb0_5 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S64x2048_S2048x64_S64x64_1_0_0_1_n_n : DotDims S64x2048 S2048x64 S64x64 where
  lhsContracting := [1]
  rhsContracting := [0]
  lhsNonContracting := [0]
  rhsNonContracting := [1]
  lhsBatch := []
  rhsBatch := []
  wf := dot_S64x2048_S2048x64_S64x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S4x8192x1024 : Shape := ⟨3, ![4, 8192, 1024]⟩
abbrev S64x1024 : Shape := ⟨2, ![64, 1024]⟩
abbrev S1024x64 : Shape := ⟨2, ![1024, 64]⟩
abbrev S4x8192x64 : Shape := ⟨3, ![4, 8192, 64]⟩
abbrev S4x64x64 : Shape := ⟨3, ![4, 64, 64]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S1024x64, .f32⟩
  | .hbm, ⟨5, _⟩ => ⟨S4x8192x64, .f32⟩
  | .hbm, ⟨6, _⟩ => ⟨S4x8192x64, .f32⟩
  | .hbm, ⟨7, _⟩ => ⟨S4x8192x64, .f32⟩
  | .hbm, ⟨8, _⟩ => ⟨S4x64x64, .f32⟩
  | .hbm, ⟨9, _⟩ => ⟨S4x8192x64, .f32⟩
  | .hbm, ⟨10, _⟩ => ⟨S_, .f32⟩
  | .hbm, ⟨11, _⟩ => ⟨S4x8192x64, .f32⟩
  | .hbm, ⟨12, _⟩ => ⟨S4x8192x64, .f32⟩
  | .hbm, ⟨13, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S4x8192x64 : S_.BroadcastsInDim S4x8192x64 (![] : Fin 0 → Fin S4x8192x64.rank)
  dot_S4x8192x1024_S64x1024_S4x8192x64_2_1_01_0_n_n_wf : DotDims.WF S4x8192x1024 S64x1024 S4x8192x64 [2] [1] [0, 1] [0] [] []
  dot_S4x8192x64_S4x8192x64_S4x64x64_1_1_2_2_0_0_wf : DotDims.WF S4x8192x64 S4x8192x64 S4x64x64 [1] [1] [2] [2] [0] [0]
  dot_S4x8192x64_S4x64x64_S4x8192x64_2_1_1_2_0_0_wf : DotDims.WF S4x8192x64 S4x64x64 S4x8192x64 [2] [1] [1] [2] [0] [0]
  dot_S4x8192x64_S1024x64_S4x8192x1024_2_1_01_0_n_n_wf : DotDims.WF S4x8192x64 S1024x64 S4x8192x1024 [2] [1] [0, 1] [0] [] []

variable [Facts₀]

def dot_S4x8192x1024_S64x1024_S4x8192x64_2_1_01_0_n_n : DotDims S4x8192x1024 S64x1024 S4x8192x64 where
  lhsContracting := [2]
  rhsContracting := [1]
  lhsNonContracting := [0, 1]
  rhsNonContracting := [0]
  lhsBatch := []
  rhsBatch := []
  wf := dot_S4x8192x1024_S64x1024_S4x8192x64_2_1_01_0_n_n_wf
def dot_S4x8192x64_S4x8192x64_S4x64x64_1_1_2_2_0_0 : DotDims S4x8192x64 S4x8192x64 S4x64x64 where
  lhsContracting := [1]
  rhsContracting := [1]
  lhsNonContracting := [2]
  rhsNonContracting := [2]
  lhsBatch := [0]
  rhsBatch := [0]
  wf := dot_S4x8192x64_S4x8192x64_S4x64x64_1_1_2_2_0_0_wf
def dot_S4x8192x64_S4x64x64_S4x8192x64_2_1_1_2_0_0 : DotDims S4x8192x64 S4x64x64 S4x8192x64 where
  lhsContracting := [2]
  rhsContracting := [1]
  lhsNonContracting := [1]
  rhsNonContracting := [2]
  lhsBatch := [0]
  rhsBatch := [0]
  wf := dot_S4x8192x64_S4x64x64_S4x8192x64_2_1_1_2_0_0_wf
def dot_S4x8192x64_S1024x64_S4x8192x1024_2_1_01_0_n_n : DotDims S4x8192x64 S1024x64 S4x8192x1024 where
  lhsContracting := [2]
  rhsContracting := [1]
  lhsNonContracting := [0, 1]
  rhsNonContracting := [0]
  lhsBatch := []
  rhsBatch := []
  wf := dot_S4x8192x64_S1024x64_S4x8192x1024_2_1_01_0_n_n_wf

class Facts : Prop extends Facts₀ where

variable [Facts]
-- ==== Proof.BodyBits.lean ====
/-
  The kernel body, run one case at a time on any staging buffers.

  A grid point (b, p, n) is in one of three cases. In the first phase (p = 0) the body projects the point's 2048 rows of x
  against wq, wk, wv, keeps the query rows in rows [2048 n, 2048 n + 2048) of the first scratch buffer and adds Kᵀ V of
  those rows to the 64 × 64 energy accumulator in the second scratch buffer — which it first sets to zero when n = 0.
  In the second phase (p = 1) it reads the same rows of the first scratch buffer back, multiplies them by the energy, by the
  scale and by woᵀ, and stores the result into the output block. Each run below states what the body finds and what it
  leaves, as functions of what it found: the inputs' buffers are left as they were, a scratch buffer stored into holds the
  stored payload on the stored rows and its old contents elsewhere.
-/
import proofs.«135907_j39986145526411_2_alg».proof.Proof.Gen.Kernel.Frame
import proofs.«135907_j39986145526411_2_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer accesses -/

theorem zero2 : (![0, 0] : Fin 2 → Nat) = fun _ => 0 := by funext a; fin_cases a <;> rfl
theorem zero3 : (![0, 0, 0] : Fin 3 → Nat) = fun _ => 0 := by funext a; fin_cases a <;> rfl

/-- The rectangle of a shape's own sizes at zero offsets places each index at itself. -/
theorem emb_unit_zero {S : Shape} {off : Fin S.rank → Nat} (h : off = fun _ => 0) (inb : ∀ a, off a + S.size a ≤ S.size a)
    (x : S.Idx) : (Rect.unit off S.size inb).emb x = x := by
  subst h; exact Rect.emb_whole_apply S x

omit [FloatOps F] in
/-- A load through it reads what the memref holds. -/
theorem read_unit_zero (c : Dev nD) {S : Shape} {e : EltTy} (M : Memref sig .tc .vmem S e) {off : Fin S.rank → Nat} (h : off = fun _ => 0)
    (inb : ∀ a, off a + S.size a ≤ S.size a) (g : Buf (Elt F) (M.view.loc (c : Thread nD τ))) :
    (M.access (Rect.unit off S.size inb)).read (Elt F) g = M.view.read (Elt F) g := by
  funext x
  show _root_.cast _ (g (M.view.emb ((Rect.unit off S.size inb).emb x))) = _root_.cast _ (g (M.view.emb x))
  rw [emb_unit_zero h inb]

omit [FloatOps F] in
/-- A store through it leaves its payload. -/
theorem read_write_unit_zero (c : Dev nD) {S : Shape} {e : EltTy} (M : Memref sig .tc .vmem S e) {off : Fin S.rank → Nat} (h : off = fun _ => 0)
    (inb : ∀ a, off a + S.size a ≤ S.size a) (f : Buf (Elt F) (M.view.loc (c : Thread nD τ))) (v : S.Idx → Elt F e) :
    M.view.read (Elt F) ((M.access (Rect.unit off S.size inb)).write (Elt F) f v Finset.univ) = v := by
  funext y
  conv_lhs => rw [← emb_unit_zero h inb y]
  rw [View.read_slice_write_emb _ _ _ (Finset.mem_univ _)]

/-! ## The branch conditions, as the body computes them from the coordinates -/

/-- The first `scf.if`: the first phase and the first tile. -/
abbrev cond1 (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
/-- The second: the first phase. -/
abbrev cond2 (i : grid0.Coords) : Prop := k0_cond2 i = 1#1
/-- The third: the second phase. -/
abbrev cond3 (i : grid0.Coords) : Prop := k0_cond3 i = 1#1

/-- The scratch buffers, whole. -/
abbrev scQ : Memref sig .tc .vmem S8192x64 .f32 := Memref.whole cc0_scratch0
abbrev scE : Memref sig .tc .vmem S64x64 .f32 := Memref.whole cc0_scratch1

/-- The rows of the first scratch buffer a second-phase point reads. -/
abbrev rectR (i : grid0.Coords) (h3 : cond3 i) : Rect S8192x64 := Rect.unit (s := S8192x64) (k0_off2 i) S2048x64.size (k0_off2_inb i h3)
/-- The rows a first-phase point stores. -/
abbrev rectW (i : grid0.Coords) (h2 : cond2 i) : Rect S8192x64 := Rect.unit (s := S8192x64) (k0_off1 i) S2048x64.size (k0_off1_inb i h2)

/-- Those rows of contents `Q`. -/
def rowsOf (i : grid0.Coords) (h3 : cond3 i) (Q : Vec F S8192x64 .f32) : Vec F S2048x64 .f32 := fun y => Q ((rectR i h3).emb y)

/-- The first scratch buffer's contents after a first-phase point stored `v` into its rows, over old contents `Q`. -/
def storedRows (i : grid0.Coords) (h2 : cond2 i) (Q : Vec F S8192x64 .f32) (v : Vec F S2048x64 .f32) : Vec F S8192x64 .f32 :=
  scQ.view.read (Elt F) ((scQ.access (rectW i h2)).write (Elt F) ((Memref.isWhole_whole cc0_scratch0).unread Q) v Finset.univ)

omit [FloatOps F] in
/-- On the stored rows it is the payload; -/
theorem storedRows_emb (i : grid0.Coords) (h2 : cond2 i) (Q : Vec F S8192x64 .f32) (v : Vec F S2048x64 .f32) (y : S2048x64.Idx) :
    storedRows i h2 Q v ((rectW i h2).emb y) = v y := by
  unfold storedRows
  exact View.read_slice_write_emb _ _ _ (Finset.mem_univ _)

omit [FloatOps F] in
/-- elsewhere the old contents. -/
theorem storedRows_of_not_mem (i : grid0.Coords) (h2 : cond2 i) (Q : Vec F S8192x64 .f32) (v : Vec F S2048x64 .f32) (y : S8192x64.Idx)
    (hy : y ∉ (rectW i h2).set) : storedRows i h2 Q v y = Q y := by
  unfold storedRows
  rw [View.read_slice_write_of_not_mem _ _ _ _ (by rwa [Rect.map_emb_univ])]
  exact congrFun ((Memref.isWhole_whole cc0_scratch0).read_unread Q) y

/-! ## The second phase -/

/-- A second-phase point: from the inputs' buffers at their blocks, the output's at anything, the scratch buffers at `Q` and
    `E`, the body leaves everything as it was but the output's buffer, which holds the projected context of the point's rows. -/
theorem run_out (c : Dev nD) (i : grid0.Coords) (h1 : ¬cond1 i) (h2 : ¬cond2 i) (h3 : cond3 i)
    (arg3 : Memref sig .tc .vmem S1x2048x1024 .f32) (harg3 : arg3.IsWhole) (arg4 : Memref sig .tc .vmem S64x1024 .f32) (harg4 : arg4.IsWhole)
    (arg5 : Memref sig .tc .vmem S64x1024 .f32) (harg5 : arg5.IsWhole) (arg6 : Memref sig .tc .vmem S64x1024 .f32) (harg6 : arg6.IsWhole)
    (arg7 : Memref sig .tc .vmem S1024x64 .f32) (harg7 : arg7.IsWhole) (arg8 : Memref sig .tc .vmem S1x2048x1024 .f32) (harg8 : arg8.IsWhole)
    (x0 : Vec F S1x2048x1024 .f32) (x1 x2 x3 : Vec F S64x1024 .f32) (x4 : Vec F S1024x64 .f32) (Q : Vec F S8192x64 .f32) (E : Vec F S64x64 .f32)
    (Em : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ owns (c : Thread nD τ) scQ fullShare Q ∗ owns (c : Thread nD τ) scE fullShare E
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
            ∗ owns (c : Thread nD τ) arg8 fullShare (k0_pay5 (rowsOf i h3 Q) E x4)
            ∗ owns (c : Thread nD τ) scQ fullShare Q ∗ owns (c : Thread nD τ) scE fullShare E) -∗ K ⟨⟩))
      ⊢ wp frame (wpE (defs₀ (F := F)) Variants.none c none) Em
          (cc0__fused_kernel i arg3 harg3 arg4 harg4 arg5 harg5 arg6 harg6 arg7 harg7 arg8 harg8 scQ (Memref.isWhole_whole _) scE (Memref.isWhole_whole _)) K := by
  simp only [cc0__fused_kernel_eq_skeleton]; unfold cc0__fused_kernel_skel
  simp only [Prog.lift, Prog.bind_op, Prog.bind_ret, Prog.bind_assoc, Prog.pure_eq_ret, dif_neg h1, dif_neg h2, dif_pos h3]
  unfold owns
  iintro ⟨H3, H4, H5, H6, ⟨%f7, %hf7, H7⟩, ⟨%d8, %f8, -, H8⟩, ⟨%fQ, %hfQ, HQ⟩, ⟨%fE, %hfE, HE⟩, Hk⟩
  iapply (wp_load_rect Variants.none (c : Thread nD τ) none Em (m := scQ) (r := rectR i h3) (View.set_slice_subset _ _)) $$ HQ
  iintro HQ
  iapply (wp_load_rect Variants.none (c : Thread nD τ) none Em (m := scE) (r := Rect.unit (s := S64x64) ![0, 0] S64x64.size inb_S64x64_S64x64_0_0) (View.set_slice_subset _ _)) $$ HE
  iintro HE
  iapply (wp_load_rect Variants.none (c : Thread nD τ) none Em (m := arg7) (r := Rect.unit (s := S1024x64) ![0, 0] S1024x64.size inb_S1024x64_S1024x64_0_0) (View.set_slice_subset _ _)) $$ H7
  iintro H7
  iapply (wp_load_rect Variants.none (c : Thread nD τ) none Em (m := arg8) (r := Rect.unit (s := S1x2048x1024) ![0, 0, 0] S1x2048x1024.size inb_S1x2048x1024_S1x2048x1024_0_0_0) (View.set_slice_subset _ _)) $$ H8
  iintro H8
  iapply (wp_store Variants.none (c : Thread nD τ) none Em (m := arg8) (r := Rect.unit (s := S1x2048x1024) ![0, 0, 0] S1x2048x1024.size inb_S1x2048x1024_S1x2048x1024_0_0_0) (Mk := Finset.univ) (View.set_slice_subset _ _)) $$ H8
  iintro H8
  rw [wp_ret]; imodintro
  iapply Hk
  isplitl [H3]; · iexact H3
  isplitl [H4]; · iexact H4
  isplitl [H5]; · iexact H5
  isplitl [H6]; · iexact H6
  isplitl [H7]
  · iexists f7; isplitr; · ipureintro; exact hf7
    iexact H7
  isplitl [H8]
  · iexists _; isplitr
    swap; · iexact H8
    ipureintro
    have eQ : (scQ.access (rectR i h3)).read (Elt F) fQ = rowsOf i h3 Q := by rw [← hfQ]; rfl
    rw [read_write_unit_zero c arg8 zero3, read_unit_zero c scE zero2, read_unit_zero c arg7 zero2, hfE, hf7, eQ]
  isplitl [HQ]
  · iexists fQ; isplitr; · ipureintro; exact hfQ
    iexact HQ
  iexists fE; isplitr; · ipureintro; exact hfE
  iexact HE

/-! ## The first phase -/

/-- A first-phase point after the first tile: the query rows stored over `Q`, the energy `E` added to. -/
theorem run_acc (c : Dev nD) (i : grid0.Coords) (h1 : ¬cond1 i) (h2 : cond2 i) (h3 : ¬cond3 i)
    (arg3 : Memref sig .tc .vmem S1x2048x1024 .f32) (harg3 : arg3.IsWhole) (arg4 : Memref sig .tc .vmem S64x1024 .f32) (harg4 : arg4.IsWhole)
    (arg5 : Memref sig .tc .vmem S64x1024 .f32) (harg5 : arg5.IsWhole) (arg6 : Memref sig .tc .vmem S64x1024 .f32) (harg6 : arg6.IsWhole)
    (arg7 : Memref sig .tc .vmem S1024x64 .f32) (harg7 : arg7.IsWhole) (arg8 : Memref sig .tc .vmem S1x2048x1024 .f32) (harg8 : arg8.IsWhole)
    (x0 : Vec F S1x2048x1024 .f32) (x1 x2 x3 : Vec F S64x1024 .f32) (x4 : Vec F S1024x64 .f32) (xo : Vec F S1x2048x1024 .f32) (Q : Vec F S8192x64 .f32) (E : Vec F S64x64 .f32)
    (Em : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xo
        ∗ owns (c : Thread nD τ) scQ fullShare Q ∗ owns (c : Thread nD τ) scE fullShare E
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xo
            ∗ owns (c : Thread nD τ) scQ fullShare (storedRows i h2 Q (k0_pay3 x0 x1)) ∗ owns (c : Thread nD τ) scE fullShare (k0_pay4 x0 x2 x3 E)) -∗ K ⟨⟩))
      ⊢ wp frame (wpE (defs₀ (F := F)) Variants.none c none) Em
          (cc0__fused_kernel i arg3 harg3 arg4 harg4 arg5 harg5 arg6 harg6 arg7 harg7 arg8 harg8 scQ (Memref.isWhole_whole _) scE (Memref.isWhole_whole _)) K := by
  simp only [cc0__fused_kernel_eq_skeleton]; unfold cc0__fused_kernel_skel
  simp only [Prog.lift, Prog.bind_op, Prog.bind_ret, Prog.bind_assoc, Prog.pure_eq_ret, dif_neg h1, dif_pos h2, dif_neg h3]
  unfold owns
  iintro ⟨⟨%f3, %hf3, H3⟩, ⟨%f4, %hf4, H4⟩, ⟨%f5, %hf5, H5⟩, ⟨%f6, %hf6, H6⟩, H7, H8, ⟨%fQ, %hfQ, HQ⟩, ⟨%fE, %hfE, HE⟩, Hk⟩
  obtain rfl := (Memref.isWhole_whole cc0_scratch0).eq_unread hfQ
  iapply (wp_load_rect Variants.none (c : Thread nD τ) none Em (m := arg3) (r := Rect.unit (s := S1x2048x1024) ![0, 0, 0] S1x2048x1024.size inb_S1x2048x1024_S1x2048x1024_0_0_0) (View.set_slice_subset _ _)) $$ H3
  iintro H3
  iapply (wp_load_rect Variants.none (c : Thread nD τ) none Em (m := arg4) (r := Rect.unit (s := S64x1024) ![0, 0] S64x1024.size inb_S64x1024_S64x1024_0_0) (View.set_slice_subset _ _)) $$ H4
  iintro H4
  iapply (wp_load_rect Variants.none (c : Thread nD τ) none Em (m := arg5) (r := Rect.unit (s := S64x1024) ![0, 0] S64x1024.size inb_S64x1024_S64x1024_0_0) (View.set_slice_subset _ _)) $$ H5
  iintro H5
  iapply (wp_load_rect Variants.none (c : Thread nD τ) none Em (m := arg6) (r := Rect.unit (s := S64x1024) ![0, 0] S64x1024.size inb_S64x1024_S64x1024_0_0) (View.set_slice_subset _ _)) $$ H6
  iintro H6
  iapply (wp_load_rect Variants.none (c : Thread nD τ) none Em (m := scQ) (r := rectW i h2) (View.set_slice_subset _ _)) $$ HQ
  iintro HQ
  iapply (wp_store Variants.none (c : Thread nD τ) none Em (m := scQ) (r := rectW i h2) (Mk := Finset.univ) (View.set_slice_subset _ _)) $$ HQ
  iintro HQ
  iapply (wp_load_rect Variants.none (c : Thread nD τ) none Em (m := scE) (r := Rect.unit (s := S64x64) ![0, 0] S64x64.size inb_S64x64_S64x64_0_0) (View.set_slice_subset _ _)) $$ HE
  iintro HE
  iapply (wp_load_rect Variants.none (c : Thread nD τ) none Em (m := scE) (r := Rect.unit (s := S64x64) ![0, 0] S64x64.size inb_S64x64_S64x64_0_0) (View.set_slice_subset _ _)) $$ HE
  iintro HE
  iapply (wp_store Variants.none (c : Thread nD τ) none Em (m := scE) (r := Rect.unit (s := S64x64) ![0, 0] S64x64.size inb_S64x64_S64x64_0_0) (Mk := Finset.univ) (View.set_slice_subset _ _)) $$ HE
  iintro HE
  rw [wp_ret]; imodintro
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]; · iexact H7
  isplitl [H8]; · iexact H8
  isplitl [HQ]
  · iexists _; isplitr
    swap; · iexact HQ
    ipureintro
    rw [read_unit_zero c arg3 zero3, read_unit_zero c arg4 zero2, hf3, hf4]
    rfl
  iexists _; isplitr
  swap; · iexact HE
  ipureintro
  rw [read_write_unit_zero c scE zero2, read_unit_zero c arg3 zero3, read_unit_zero c arg5 zero2, read_unit_zero c arg6 zero2, read_unit_zero c scE zero2, hf3, hf5, hf6, hfE]

/-- A first-phase point at the first tile: the energy set to zero first, then as at the other tiles. What the scratch buffers
    held before does not matter for the energy; the query rows are stored over `Q`. -/
theorem run_init (c : Dev nD) (i : grid0.Coords) (h1 : cond1 i) (h2 : cond2 i) (h3 : ¬cond3 i)
    (arg3 : Memref sig .tc .vmem S1x2048x1024 .f32) (harg3 : arg3.IsWhole) (arg4 : Memref sig .tc .vmem S64x1024 .f32) (harg4 : arg4.IsWhole)
    (arg5 : Memref sig .tc .vmem S64x1024 .f32) (harg5 : arg5.IsWhole) (arg6 : Memref sig .tc .vmem S64x1024 .f32) (harg6 : arg6.IsWhole)
    (arg7 : Memref sig .tc .vmem S1024x64 .f32) (harg7 : arg7.IsWhole) (arg8 : Memref sig .tc .vmem S1x2048x1024 .f32) (harg8 : arg8.IsWhole)
    (x0 : Vec F S1x2048x1024 .f32) (x1 x2 x3 : Vec F S64x1024 .f32) (x4 : Vec F S1024x64 .f32) (xo : Vec F S1x2048x1024 .f32) (Q : Vec F S8192x64 .f32)
    (Em : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xo
        ∗ owns (c : Thread nD τ) scQ fullShare Q ∗ (∃ d, owns (c : Thread nD τ) scE fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xo
            ∗ owns (c : Thread nD τ) scQ fullShare (storedRows i h2 Q (k0_pay3 x0 x1)) ∗ owns (c : Thread nD τ) scE fullShare (k0_pay4 x0 x2 x3 k0_pay1)) -∗ K ⟨⟩))
      ⊢ wp frame (wpE (defs₀ (F := F)) Variants.none c none) Em
          (cc0__fused_kernel i arg3 harg3 arg4 harg4 arg5 harg5 arg6 harg6 arg7 harg7 arg8 harg8 scQ (Memref.isWhole_whole _) scE (Memref.isWhole_whole _)) K := by
  simp only [cc0__fused_kernel_eq_skeleton]; unfold cc0__fused_kernel_skel
  simp only [Prog.lift, Prog.bind_op, Prog.bind_ret, Prog.bind_assoc, Prog.pure_eq_ret, dif_pos h1, dif_pos h2, dif_neg h3]
  unfold owns
  iintro ⟨⟨%f3, %hf3, H3⟩, ⟨%f4, %hf4, H4⟩, ⟨%f5, %hf5, H5⟩, ⟨%f6, %hf6, H6⟩, H7, H8, ⟨%fQ, %hfQ, HQ⟩, ⟨%dE, %fE, -, HE⟩, Hk⟩
  obtain rfl := (Memref.isWhole_whole cc0_scratch0).eq_unread hfQ
  iapply (wp_load_rect Variants.none (c : Thread nD τ) none Em (m := scE) (r := Rect.unit (s := S64x64) ![0, 0] S64x64.size inb_S64x64_S64x64_0_0) (View.set_slice_subset _ _)) $$ HE
  iintro HE
  iapply (wp_store Variants.none (c : Thread nD τ) none Em (m := scE) (r := Rect.unit (s := S64x64) ![0, 0] S64x64.size inb_S64x64_S64x64_0_0) (Mk := Finset.univ) (View.set_slice_subset _ _)) $$ HE
  iintro HE
  iapply (wp_load_rect Variants.none (c : Thread nD τ) none Em (m := arg3) (r := Rect.unit (s := S1x2048x1024) ![0, 0, 0] S1x2048x1024.size inb_S1x2048x1024_S1x2048x1024_0_0_0) (View.set_slice_subset _ _)) $$ H3
  iintro H3
  iapply (wp_load_rect Variants.none (c : Thread nD τ) none Em (m := arg4) (r := Rect.unit (s := S64x1024) ![0, 0] S64x1024.size inb_S64x1024_S64x1024_0_0) (View.set_slice_subset _ _)) $$ H4
  iintro H4
  iapply (wp_load_rect Variants.none (c : Thread nD τ) none Em (m := arg5) (r := Rect.unit (s := S64x1024) ![0, 0] S64x1024.size inb_S64x1024_S64x1024_0_0) (View.set_slice_subset _ _)) $$ H5
  iintro H5
  iapply (wp_load_rect Variants.none (c : Thread nD τ) none Em (m := arg6) (r := Rect.unit (s := S64x1024) ![0, 0] S64x1024.size inb_S64x1024_S64x1024_0_0) (View.set_slice_subset _ _)) $$ H6
  iintro H6
  iapply (wp_load_rect Variants.none (c : Thread nD τ) none Em (m := scQ) (r := rectW i h2) (View.set_slice_subset _ _)) $$ HQ
  iintro HQ
  iapply (wp_store Variants.none (c : Thread nD τ) none Em (m := scQ) (r := rectW i h2) (Mk := Finset.univ) (View.set_slice_subset _ _)) $$ HQ
  iintro HQ
  iapply (wp_load_rect Variants.none (c : Thread nD τ) none Em (m := scE) (r := Rect.unit (s := S64x64) ![0, 0] S64x64.size inb_S64x64_S64x64_0_0) (View.set_slice_subset _ _)) $$ HE
  iintro HE
  iapply (wp_load_rect Variants.none (c : Thread nD τ) none Em (m := scE) (r := Rect.unit (s := S64x64) ![0, 0] S64x64.size inb_S64x64_S64x64_0_0) (View.set_slice_subset _ _)) $$ HE
  iintro HE
  iapply (wp_store Variants.none (c : Thread nD τ) none Em (m := scE) (r := Rect.unit (s := S64x64) ![0, 0] S64x64.size inb_S64x64_S64x64_0_0) (Mk := Finset.univ) (View.set_slice_subset _ _)) $$ HE
  iintro HE
  rw [wp_ret]; imodintro
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]; · iexact H7
  isplitl [H8]; · iexact H8
  isplitl [HQ]
  · iexists _; isplitr
    swap; · iexact HQ
    ipureintro
    rw [read_unit_zero c arg3 zero3, read_unit_zero c arg4 zero2, hf3, hf4]
    rfl
  iexists _; isplitr
  swap; · iexact HE
  ipureintro
  rw [read_write_unit_zero c scE zero2, read_unit_zero c arg3 zero3, read_unit_zero c arg5 zero2, read_unit_zero c arg6 zero2, read_unit_zero c scE zero2, hf3, hf5, hf6, read_write_unit_zero c scE zero2]

end Cert.Kernel.Hand

end
-- ==== Proof.DataBits.lean ====
/-
  The proof data of the one pipeline, the body at a generic point, and the run.

  The 32 grid points run in order t = 8 b + 4 p + n. What the kernel carries from point to point is in its two scratch
  buffers: the energy accumulator, whose contents after each point are named by recursion on the point (`eAt`: reset and
  added to at the first tile of a batch, added to at its other first-phase points, kept through its second phase), and the
  query rows, of which the invariant says only what later points read: after point n, for every first-phase point s ≤ n of
  the same batch, the rows that s stored still hold the projection of s's block of x (`QInv`). The output block a
  second-phase point leaves is the context of those rows against the finished energy (`outAt`).
-/
import proofs.«135907_j39986145526411_2_alg».proof.Proof.BodyBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, decided over the grid -/

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ t.val / 4 % 2 = 0 :=
  (by decide +kernel : ∀ t : Fin grid0.N, cond2 (grid0.coords t) ↔ t.val / 4 % 2 = 0)
theorem hcond3 : ∀ t : Fin cfg0.N, cond3 (grid0.coords t) ↔ ¬t.val / 4 % 2 = 0 :=
  (by decide +kernel : ∀ t : Fin grid0.N, cond3 (grid0.coords t) ↔ ¬t.val / 4 % 2 = 0)
/-- The tile of a point. -/
theorem htile : ∀ t : Fin cfg0.N, ((grid0.coords t) 2).val = t.val % 4 :=
  (by decide +kernel : ∀ t : Fin grid0.N, ((grid0.coords t) 2).val = t.val % 4)

/-- The inputs' windows are never idle. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
/-- The output's window is idle through the first phase and is not written back there; in the second phase it is live. -/
theorem idle5 : ∀ t : Fin cfg0.N, t.val / 4 % 2 = 0 → cfg0.idle 5 (grid0.coords t) = true :=
  (by decide +kernel : ∀ t : Fin grid0.N, t.val / 4 % 2 = 0 → cfg0.idle 5 (grid0.coords t) = true)
theorem noFlush5 : ∀ t : Fin cfg0.N, t.val / 4 % 2 = 0 → (cfg0.win 5).flush t = false :=
  (by decide +kernel : ∀ t : Fin grid0.N, t.val / 4 % 2 = 0 → win0_5.flush t = false)
theorem live5 : ∀ t : Fin cfg0.N, ¬t.val / 4 % 2 = 0 → cfg0.idle 5 (grid0.coords t) = false :=
  (by decide +kernel : ∀ t : Fin grid0.N, ¬t.val / 4 % 2 = 0 → cfg0.idle 5 (grid0.coords t) = false)

/-! ## The staging buffers at a point -/

abbrev ms0 (t : Fin cfg0.N) : Memref sig .tc .vmem S1x2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2048x1024 .f32 := win0_5.stage (cfg0.slots t 5)
abbrev hs5 (t : Fin cfg0.N) : (ms5 t).IsWhole := hstage0_5 ((cfg0.slots t 5).cast nbuf0_5)

/-- The class's invariant with the two scratch buffers as memrefs owned at some contents. -/
theorem PhiA_eq (c : Dev nD) :
    (Pipeline.ΦA spec0 c : sProp 𝕄)
      = iprop(iprop((∃ d, owns (c : Thread nD τ) scQ fullShare d) ∗ (∃ d, owns (c : Thread nD τ) scE fullShare d)) ∗ (∃ r, prngReg c r)) := by
  unfold Pipeline.ΦA; rw [scopedRest0_eq]; simp only [scQ, scE, owns_whole]; try rfl

/-! ## What the scratch buffers and the output block hold after each point -/

/-- The energy accumulator after point `n`. -/
def eAt (c : Dev nD) : (n : ℕ) → n < cfg0.N → Vec F S64x64 .f32
  | 0, hn => k0_pay4 (iblk m c 0 ⟨0, hn⟩) (iblk m c 2 ⟨0, hn⟩) (iblk m c 3 ⟨0, hn⟩) k0_pay1
  | n + 1, hn =>
    if (n + 1) / 4 % 2 = 0 then
      k0_pay4 (iblk m c 0 ⟨n + 1, hn⟩) (iblk m c 2 ⟨n + 1, hn⟩) (iblk m c 3 ⟨n + 1, hn⟩)
        (if (n + 1) % 8 = 0 then k0_pay1 else eAt c n (Nat.lt_of_succ_lt hn))
    else eAt c n (Nat.lt_of_succ_lt hn)

/-- At a batch's first point: the first tile's contribution over zero. -/
theorem eAt_init (c : Dev nD) (t : Fin cfg0.N) (h2 : t.val / 4 % 2 = 0) (h1 : t.val % 8 = 0) :
    eAt m c t.val t.isLt = k0_pay4 (iblk m c 0 t) (iblk m c 2 t) (iblk m c 3 t) k0_pay1 := by
  obtain ⟨n, hn⟩ := t
  cases n with
  | zero => rfl
  | succ n => exact (if_pos h2).trans (congrArg _ (if_pos h1))

/-- At its other first-phase points: the tile's contribution over what the point before left. -/
theorem eAt_acc (c : Dev nD) (t : Fin cfg0.N) (h2 : t.val / 4 % 2 = 0) (h1 : ¬t.val % 8 = 0) :
    eAt m c t.val t.isLt = k0_pay4 (iblk m c 0 t) (iblk m c 2 t) (iblk m c 3 t)
      (eAt m c (t.val - 1) (Nat.lt_of_le_of_lt (Nat.sub_le _ _) t.isLt)) := by
  obtain ⟨n, hn⟩ := t
  cases n with
  | zero => exact absurd (Nat.zero_mod _) h1
  | succ n => exact (if_pos h2).trans (congrArg _ (if_neg h1))

/-- Through its second phase: kept. -/
theorem eAt_keep (c : Dev nD) (t : Fin cfg0.N) (h2 : ¬t.val / 4 % 2 = 0) :
    eAt m c t.val t.isLt = eAt m c (t.val - 1) (Nat.lt_of_le_of_lt (Nat.sub_le _ _) t.isLt) := by
  obtain ⟨n, hn⟩ := t
  cases n with
  | zero => exact (h2 (by show (0 : ℕ) / 4 % 2 = 0; decide)).elim
  | succ n => exact if_neg h2

/-- What later points need of the query rows after point `n`: every first-phase point `s ≤ n` of `n`'s batch finds the rows it
    stored — rows 2048 (s mod 4) onward — at the projection of its block of x. -/
def QInv (c : Dev nD) (n : ℕ) (Q : Vec F S8192x64 .f32) : Prop :=
  ∀ s : Fin cfg0.N, s.val / 8 = n / 8 → s.val / 4 % 2 = 0 → s.val ≤ n →
    ∀ (y : S2048x64.Idx) (z : S8192x64.Idx), (z 0).val = 2048 * (s.val % 4) + (y 0).val → (z 1).val = (y 1).val →
      Q z = k0_pay3 (iblk m c 0 s) (iblk m c 1 s) y

/-- The output block after a second-phase point `n`: the context of the rows point `n - 4` stored, against the energy. -/
def outAt (c : Dev nD) (n : ℕ) (hn : n < cfg0.N) : Vec F S1x2048x1024 .f32 :=
  k0_pay5 (k0_pay3 (iblk m c 0 ⟨n - 4, Nat.lt_of_le_of_lt (Nat.sub_le _ _) hn⟩) (iblk m c 1 ⟨n - 4, Nat.lt_of_le_of_lt (Nat.sub_le _ _) hn⟩))
    (eAt m c n hn) (iblk m c 4 ⟨n, hn⟩)

/-- The region invariant before position `n`: before the first point the class's; afterwards the energy accumulator at
    `eAt`, the query rows at some contents satisfying `QInv`, the generator register at some state. -/
def PhiS (c : Dev nD) : (n : ℕ) → n ≤ cfg0.N → sProp 𝕄
  | 0, _ => Pipeline.ΦA spec0 c
  | n + 1, hn => iprop(owns (c : Thread nD τ) scE fullShare (eAt m c n hn) ∗ (∃ Q, owns (c : Thread nD τ) scQ fullShare Q ∗ ⌜QInv m c n Q⌝) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scE fullShare (eAt m c n hn) ∗ (∃ Q, owns (c : Thread nD τ) scQ fullShare Q ∗ ⌜QInv m c n Q⌝) ∗ (∃ r, prngReg c r)) := rfl

theorem PhiS_pos (c : Dev nD) (n : ℕ) (h : n ≤ cfg0.N) (hz : n ≠ 0) :
    PhiS m c n h = iprop(owns (c : Thread nD τ) scE fullShare (eAt m c (n - 1) (by omega)) ∗ (∃ Q, owns (c : Thread nD τ) scQ fullShare Q ∗ ⌜QInv m c (n - 1) Q⌝) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The invariant on the query rows, step by step -/

/-- Where the rows a first-phase point stores sit: row 2048 (t mod 4) + y₀, column y₁. -/
theorem rectW_emb_val (t : Fin cfg0.N) (h2 : cond2 (grid0.coords t)) (y : S2048x64.Idx) :
    (((rectW (grid0.coords t) h2).emb y) 0).val = 2048 * (t.val % 4) + (y 0).val
      ∧ (((rectW (grid0.coords t) h2).emb y) 1).val = (y 1).val := by
  have ht := htile t
  refine ⟨?_, ?_⟩ <;> rw [Rect.emb_apply]
  · show (k0_off1 (grid0.coords t)) 0 + 1 * (y 0).val = _
    rw [k0_off1_eq]
    show 2048 * ((grid0.coords t) 2).val + 1 * (y 0).val = _
    omega
  · show (k0_off1 (grid0.coords t)) 1 + 1 * (y 1).val = _
    rw [k0_off1_eq]
    show 0 + 1 * (y 1).val = _
    omega

/-- The same for the rows a second-phase point reads. -/
theorem rectR_emb_val (t : Fin cfg0.N) (h3 : cond3 (grid0.coords t)) (y : S2048x64.Idx) :
    (((rectR (grid0.coords t) h3).emb y) 0).val = 2048 * (t.val % 4) + (y 0).val
      ∧ (((rectR (grid0.coords t) h3).emb y) 1).val = (y 1).val := by
  have ht := htile t
  refine ⟨?_, ?_⟩ <;> rw [Rect.emb_apply]
  · show (k0_off2 (grid0.coords t)) 0 + 1 * (y 0).val = _
    rw [k0_off2_eq]
    show 2048 * ((grid0.coords t) 2).val + 1 * (y 0).val = _
    omega
  · show (k0_off2 (grid0.coords t)) 1 + 1 * (y 1).val = _
    rw [k0_off2_eq]
    show 0 + 1 * (y 1).val = _
    omega

/-- A first-phase point's store keeps the invariant: its own rows now hold its projection, and the rows of the batch's
    earlier points are other rows. -/
theorem QInv_store (c : Dev nD) (t : Fin cfg0.N) (hp : t.val / 4 % 2 = 0) (h2 : cond2 (grid0.coords t)) (Q : Vec F S8192x64 .f32)
    (hprev : ¬t.val % 8 = 0 → QInv m c (t.val - 1) Q) :
    QInv m c t.val (storedRows (grid0.coords t) h2 Q (k0_pay3 (iblk m c 0 t) (iblk m c 1 t))) := by
  intro s hb hs hle y z hz0 hz1
  have hN : t.val < 32 := lt_of_lt_of_eq t.isLt (show cfg0.N = 32 from N_0)
  by_cases hst : s.val = t.val
  · obtain rfl : s = t := Fin.ext hst
    obtain ⟨e0, e1⟩ := rectW_emb_val s h2 y
    have hz : z = (rectW (grid0.coords s) h2).emb y := by
      funext a; apply Fin.ext
      match a with
      | ⟨0, _⟩ => exact hz0.trans e0.symm
      | ⟨1, _⟩ => exact hz1.trans e1.symm
    rw [hz, storedRows_emb]
  · have hy0 : (y 0).val < 2048 := (y 0).isLt
    rw [storedRows_of_not_mem (grid0.coords t) h2 Q _ z (fun hmem => by
      have h0 : 2048 * ((grid0.coords t) 2).val ≤ (z 0).val ∧ (z 0).val < 2048 * ((grid0.coords t) 2).val + 2048 := by
        have := (Rect.mem_set_unit.mp hmem) 0
        rw [k0_off1_eq] at this
        exact this
      have ht := htile t
      omega)]
    exact hprev (by omega) s (by omega) hs (by omega) y z hz0 hz1

/-- A second-phase point stores no query rows. -/
theorem QInv_keep (c : Dev nD) (t : Fin cfg0.N) (hp : ¬t.val / 4 % 2 = 0) (Q : Vec F S8192x64 .f32)
    (hprev : QInv m c (t.val - 1) Q) : QInv m c t.val Q := by
  intro s hb hs hle y z hz0 hz1
  have hN : t.val < 32 := lt_of_lt_of_eq t.isLt (show cfg0.N = 32 from N_0)
  exact hprev s (by omega) hs (by omega) y z hz0 hz1

/-- The rows a second-phase point reads are the projection the point four before it stored. -/
theorem rows_eq (c : Dev nD) (t : Fin cfg0.N) (hp : ¬t.val / 4 % 2 = 0) (h3 : cond3 (grid0.coords t)) (Q : Vec F S8192x64 .f32)
    (hQ : QInv m c (t.val - 1) Q) :
    rowsOf (grid0.coords t) h3 Q
      = k0_pay3 (iblk m c 0 ⟨t.val - 4, Nat.lt_of_le_of_lt (Nat.sub_le _ _) t.isLt⟩) (iblk m c 1 ⟨t.val - 4, Nat.lt_of_le_of_lt (Nat.sub_le _ _) t.isLt⟩) := by
  have hN : t.val < 32 := lt_of_lt_of_eq t.isLt (show cfg0.N = 32 from N_0)
  funext y
  obtain ⟨e0, e1⟩ := rectR_emb_val t h3 y
  exact hQ ⟨t.val - 4, Nat.lt_of_le_of_lt (Nat.sub_le _ _) t.isLt⟩ (by show (t.val - 4) / 8 = (t.val - 1) / 8; omega)
    (by show (t.val - 4) / 4 % 2 = 0; omega) (by show t.val - 4 ≤ t.val - 1; omega) y _
    (by rw [e0]; show _ = 2048 * ((t.val - 4) % 4) + _; omega) e1

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
/-- The body at any point: the schedule's closed forms say which case the point is in; the invariant hands the run the
    scratch buffers at what the point before left (at anything before the first point) and takes them back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  by_cases hp : t.val / 4 % 2 = 0
  · rw [Dat.leavesExact_idle (dats m 0 c) 5 t (idle5 t hp) (noFlush5 t hp)]
    by_cases hi : t.val % 8 = 0
    · rw [eAt_init m c t hp hi]
      by_cases hz : t.val = 0
      · rw [PhiS_castSucc m c t, PhiS_zero m c _ _ hz, PhiA_eq]
        iintro ⟨⟨⟨⟨%dQ, HQ⟩, HE⟩, Hg⟩, Ho, ⟨%d0, H0⟩, ⟨%d1, H1⟩, ⟨%d2, H2⟩, ⟨%d3, H3⟩, ⟨%d4, H4⟩, ⟨%d5, H5⟩⟩
        iapply (run_init c (grid0.coords t) ((hcond1 t).mpr hi) ((hcond2 t).mpr hp) (fun h => (hcond3 t).mp h hp) (ms0 t) (hs0 t) (ms1 t) (hs1 t) (ms2 t) (hs2 t) (ms3 t) (hs3 t) (ms4 t) (hs4 t) (ms5 t) (hs5 t)
          (iblk m c 0 t) (iblk m c 1 t) (iblk m c 2 t) (iblk m c 3 t) (iblk m c 4 t) _ dQ Set.univ _)
        isplitl [H0]; · iexact H0
        isplitl [H1]; · iexact H1
        isplitl [H2]; · iexact H2
        isplitl [H3]; · iexact H3
        isplitl [H4]; · iexact H4
        isplitl [H5]; · iexact H5
        isplitl [HQ]; · iexact HQ
        isplitl [HE]; · iexact HE
        iintro ⟨H0, H1, H2, H3, H4, H5, HQ, HE⟩
        isplitl [HQ HE Hg]
        · isplitl [HE]; · iexact HE
          isplitl [HQ]
          · iexists _; isplitl [HQ]; · iexact HQ
            ipureintro; exact QInv_store m c t hp _ dQ (fun h => absurd hi h)
          iexact Hg
        isplitl [Ho]; · iexact Ho
        isplitl [H0]; · iexact H0
        isplitl [H1]; · iexact H1
        isplitl [H2]; · iexact H2
        isplitl [H3]; · iexact H3
        isplitl [H4]; · iexact H4
        iexists d5; iexact H5
      · rw [PhiS_castSucc m c t, PhiS_pos m c _ _ hz]
        iintro ⟨⟨HE, ⟨%Q, HQ, %hQ⟩, Hg⟩, Ho, ⟨%d0, H0⟩, ⟨%d1, H1⟩, ⟨%d2, H2⟩, ⟨%d3, H3⟩, ⟨%d4, H4⟩, ⟨%d5, H5⟩⟩
        iapply (run_init c (grid0.coords t) ((hcond1 t).mpr hi) ((hcond2 t).mpr hp) (fun h => (hcond3 t).mp h hp) (ms0 t) (hs0 t) (ms1 t) (hs1 t) (ms2 t) (hs2 t) (ms3 t) (hs3 t) (ms4 t) (hs4 t) (ms5 t) (hs5 t)
          (iblk m c 0 t) (iblk m c 1 t) (iblk m c 2 t) (iblk m c 3 t) (iblk m c 4 t) _ Q Set.univ _)
        isplitl [H0]; · iexact H0
        isplitl [H1]; · iexact H1
        isplitl [H2]; · iexact H2
        isplitl [H3]; · iexact H3
        isplitl [H4]; · iexact H4
        isplitl [H5]; · iexact H5
        isplitl [HQ]; · iexact HQ
        isplitl [HE]; · iexists _; iexact HE
        iintro ⟨H0, H1, H2, H3, H4, H5, HQ, HE⟩
        isplitl [HQ HE Hg]
        · isplitl [HE]; · iexact HE
          isplitl [HQ]
          · iexists _; isplitl [HQ]; · iexact HQ
            ipureintro; exact QInv_store m c t hp _ Q (fun h => absurd hi h)
          iexact Hg
        isplitl [Ho]; · iexact Ho
        isplitl [H0]; · iexact H0
        isplitl [H1]; · iexact H1
        isplitl [H2]; · iexact H2
        isplitl [H3]; · iexact H3
        isplitl [H4]; · iexact H4
        iexists d5; iexact H5
    · have hz : t.val ≠ 0 := fun h => hi (by rw [h])
      rw [eAt_acc m c t hp hi, PhiS_castSucc m c t, PhiS_pos m c _ _ hz]
      iintro ⟨⟨HE, ⟨%Q, HQ, %hQ⟩, Hg⟩, Ho, ⟨%d0, H0⟩, ⟨%d1, H1⟩, ⟨%d2, H2⟩, ⟨%d3, H3⟩, ⟨%d4, H4⟩, ⟨%d5, H5⟩⟩
      iapply (run_acc c (grid0.coords t) (fun h => hi ((hcond1 t).mp h)) ((hcond2 t).mpr hp) (fun h => (hcond3 t).mp h hp) (ms0 t) (hs0 t) (ms1 t) (hs1 t) (ms2 t) (hs2 t) (ms3 t) (hs3 t) (ms4 t) (hs4 t) (ms5 t) (hs5 t)
          (iblk m c 0 t) (iblk m c 1 t) (iblk m c 2 t) (iblk m c 3 t) (iblk m c 4 t) _ Q _ Set.univ _)
      isplitl [H0]; · iexact H0
      isplitl [H1]; · iexact H1
      isplitl [H2]; · iexact H2
      isplitl [H3]; · iexact H3
      isplitl [H4]; · iexact H4
      isplitl [H5]; · iexact H5
      isplitl [HQ]; · iexact HQ
      isplitl [HE]; · iexact HE
      iintro ⟨H0, H1, H2, H3, H4, H5, HQ, HE⟩
      isplitl [HQ HE Hg]
      · isplitl [HE]; · iexact HE
        isplitl [HQ]
        · iexists _; isplitl [HQ]; · iexact HQ
          ipureintro; exact QInv_store m c t hp _ Q (fun _ => hQ)
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => hp (by rw [h])
    have h3 : cond3 (grid0.coords t) := (hcond3 t).mpr hp
    rw [show (dats m 0 c).leavesExact 5 t = owns (c : Thread nD τ) (ms5 t) fullShare ((dats m 0 c).after 5 t) from by
      unfold Dat.leavesExact; rw [live5 t hp], after5]
    rw [eAt_keep m c t hp, PhiS_castSucc m c t, PhiS_pos m c _ _ hz]
    iintro ⟨⟨HE, ⟨%Q, HQ, %hQ⟩, Hg⟩, Ho, ⟨%d0, H0⟩, ⟨%d1, H1⟩, ⟨%d2, H2⟩, ⟨%d3, H3⟩, ⟨%d4, H4⟩, ⟨%d5, H5⟩⟩
    have hout : k0_pay5 (rowsOf (grid0.coords t) h3 Q) (eAt m c (t.val - 1) (Nat.lt_of_le_of_lt (Nat.sub_le _ _) t.isLt)) (iblk m c 4 t)
        = outAt m c t.val t.isLt := by
      unfold outAt; rw [rows_eq m c t hp h3 Q hQ, eAt_keep m c t hp]
    iapply (run_out c (grid0.coords t) (fun h => by have := (hcond1 t).mp h; omega) (fun h => hp ((hcond2 t).mp h)) h3 (ms0 t) (hs0 t) (ms1 t) (hs1 t) (ms2 t) (hs2 t) (ms3 t) (hs3 t) (ms4 t) (hs4 t) (ms5 t) (hs5 t)
          (iblk m c 0 t) (iblk m c 1 t) (iblk m c 2 t) (iblk m c 3 t) (iblk m c 4 t) Q _ Set.univ _)
    isplitl [H0]; · iexact H0
    isplitl [H1]; · iexact H1
    isplitl [H2]; · iexact H2
    isplitl [H3]; · iexact H3
    isplitl [H4]; · iexact H4
    isplitl [H5]; · iexists _; iexact H5
    isplitl [HQ]; · iexact HQ
    isplitl [HE]; · iexact HE
    iintro ⟨H0, H1, H2, H3, H4, H5, HQ, HE⟩
    isplitl [HQ HE Hg]
    · isplitl [HE]; · iexact HE
      isplitl [HQ]
      · iexists _; isplitl [HQ]; · iexact HQ
        ipureintro; exact QInv_keep m c t hp Q hQ
      iexact Hg
    isplitl [Ho]; · iexact Ho
    isplitl [H0]; · iexact H0
    isplitl [H1]; · iexact H1
    isplitl [H2]; · iexact H2
    isplitl [H3]; · iexact H3
    isplitl [H4]; · iexact H4
    rw [← hout]; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: what the scratch buffers hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HE, ⟨%Q, HQ, -⟩, Hg⟩
  isplitl [HQ HE]
  · isplitl [HQ]; · iexists _; iexact HQ
    iexists _; iexact HE
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates, and every final state has each array of the pipeline at what the library
    computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs, nothing faults, the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.Body.lean ====
/-
  The kernel body, run one case at a time on any staging buffers.

  A grid point (b, p, n) is in one of three cases. In the first phase (p = 0) the body projects the point's 2048 rows of x
  against wq, wk, wv, keeps the query rows in rows [2048 n, 2048 n + 2048) of the first scratch buffer and adds Kᵀ V of
  those rows to the 64 × 64 energy accumulator in the second scratch buffer — which it first sets to zero when n = 0.
  In the second phase (p = 1) it reads the same rows of the first scratch buffer back, multiplies them by the energy, by the
  scale and by woᵀ, and stores the result into the output block. Each run below states what the body finds and what it
  leaves, as functions of what it found: the inputs' buffers are left as they were, a scratch buffer stored into holds the
  stored payload on the stored rows and its old contents elsewhere.
-/
import proofs.«135907_j39986145526411_2_alg».proof.Proof.Gen.KernelIdeal.Frame
import proofs.«135907_j39986145526411_2_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer accesses -/

theorem zero2 : (![0, 0] : Fin 2 → Nat) = fun _ => 0 := by funext a; fin_cases a <;> rfl
theorem zero3 : (![0, 0, 0] : Fin 3 → Nat) = fun _ => 0 := by funext a; fin_cases a <;> rfl

/-- The rectangle of a shape's own sizes at zero offsets places each index at itself. -/
theorem emb_unit_zero {S : Shape} {off : Fin S.rank → Nat} (h : off = fun _ => 0) (inb : ∀ a, off a + S.size a ≤ S.size a)
    (x : S.Idx) : (Rect.unit off S.size inb).emb x = x := by
  subst h; exact Rect.emb_whole_apply S x

omit [FloatOps F] in
/-- A load through it reads what the memref holds. -/
theorem read_unit_zero (c : Dev nD) {S : Shape} {e : EltTy} (M : Memref sig .tc .vmem S e) {off : Fin S.rank → Nat} (h : off = fun _ => 0)
    (inb : ∀ a, off a + S.size a ≤ S.size a) (g : Buf (Elt F) (M.view.loc (c : Thread nD τ))) :
    (M.access (Rect.unit off S.size inb)).read (Elt F) g = M.view.read (Elt F) g := by
  funext x
  show _root_.cast _ (g (M.view.emb ((Rect.unit off S.size inb).emb x))) = _root_.cast _ (g (M.view.emb x))
  rw [emb_unit_zero h inb]

omit [FloatOps F] in
/-- A store through it leaves its payload. -/
theorem read_write_unit_zero (c : Dev nD) {S : Shape} {e : EltTy} (M : Memref sig .tc .vmem S e) {off : Fin S.rank → Nat} (h : off = fun _ => 0)
    (inb : ∀ a, off a + S.size a ≤ S.size a) (f : Buf (Elt F) (M.view.loc (c : Thread nD τ))) (v : S.Idx → Elt F e) :
    M.view.read (Elt F) ((M.access (Rect.unit off S.size inb)).write (Elt F) f v Finset.univ) = v := by
  funext y
  conv_lhs => rw [← emb_unit_zero h inb y]
  rw [View.read_slice_write_emb _ _ _ (Finset.mem_univ _)]

/-! ## The branch conditions, as the body computes them from the coordinates -/

/-- The first `scf.if`: the first phase and the first tile. -/
abbrev cond1 (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
/-- The second: the first phase. -/
abbrev cond2 (i : grid0.Coords) : Prop := k0_cond2 i = 1#1
/-- The third: the second phase. -/
abbrev cond3 (i : grid0.Coords) : Prop := k0_cond3 i = 1#1

/-- The scratch buffers, whole. -/
abbrev scQ : Memref sig .tc .vmem S8192x64 .f32 := Memref.whole cc0_scratch0
abbrev scE : Memref sig .tc .vmem S64x64 .f32 := Memref.whole cc0_scratch1

/-- The rows of the first scratch buffer a second-phase point reads. -/
abbrev rectR (i : grid0.Coords) (h3 : cond3 i) : Rect S8192x64 := Rect.unit (s := S8192x64) (k0_off2 i) S2048x64.size (k0_off2_inb i h3)
/-- The rows a first-phase point stores. -/
abbrev rectW (i : grid0.Coords) (h2 : cond2 i) : Rect S8192x64 := Rect.unit (s := S8192x64) (k0_off1 i) S2048x64.size (k0_off1_inb i h2)

/-- Those rows of contents `Q`. -/
def rowsOf (i : grid0.Coords) (h3 : cond3 i) (Q : Vec F S8192x64 .f32) : Vec F S2048x64 .f32 := fun y => Q ((rectR i h3).emb y)

/-- The first scratch buffer's contents after a first-phase point stored `v` into its rows, over old contents `Q`. -/
def storedRows (i : grid0.Coords) (h2 : cond2 i) (Q : Vec F S8192x64 .f32) (v : Vec F S2048x64 .f32) : Vec F S8192x64 .f32 :=
  scQ.view.read (Elt F) ((scQ.access (rectW i h2)).write (Elt F) ((Memref.isWhole_whole cc0_scratch0).unread Q) v Finset.univ)

omit [FloatOps F] in
/-- On the stored rows it is the payload; -/
theorem storedRows_emb (i : grid0.Coords) (h2 : cond2 i) (Q : Vec F S8192x64 .f32) (v : Vec F S2048x64 .f32) (y : S2048x64.Idx) :
    storedRows i h2 Q v ((rectW i h2).emb y) = v y := by
  unfold storedRows
  exact View.read_slice_write_emb _ _ _ (Finset.mem_univ _)

omit [FloatOps F] in
/-- elsewhere the old contents. -/
theorem storedRows_of_not_mem (i : grid0.Coords) (h2 : cond2 i) (Q : Vec F S8192x64 .f32) (v : Vec F S2048x64 .f32) (y : S8192x64.Idx)
    (hy : y ∉ (rectW i h2).set) : storedRows i h2 Q v y = Q y := by
  unfold storedRows
  rw [View.read_slice_write_of_not_mem _ _ _ _ (by rwa [Rect.map_emb_univ])]
  exact congrFun ((Memref.isWhole_whole cc0_scratch0).read_unread Q) y

/-! ## The second phase -/

/-- A second-phase point: from the inputs' buffers at their blocks, the output's at anything, the scratch buffers at `Q` and
    `E`, the body leaves everything as it was but the output's buffer, which holds the projected context of the point's rows. -/
theorem run_out (c : Dev nD) (i : grid0.Coords) (h1 : ¬cond1 i) (h2 : ¬cond2 i) (h3 : cond3 i)
    (arg3 : Memref sig .tc .vmem S1x2048x1024 .f32) (harg3 : arg3.IsWhole) (arg4 : Memref sig .tc .vmem S64x1024 .f32) (harg4 : arg4.IsWhole)
    (arg5 : Memref sig .tc .vmem S64x1024 .f32) (harg5 : arg5.IsWhole) (arg6 : Memref sig .tc .vmem S64x1024 .f32) (harg6 : arg6.IsWhole)
    (arg7 : Memref sig .tc .vmem S1024x64 .f32) (harg7 : arg7.IsWhole) (arg8 : Memref sig .tc .vmem S1x2048x1024 .f32) (harg8 : arg8.IsWhole)
    (x0 : Vec F S1x2048x1024 .f32) (x1 x2 x3 : Vec F S64x1024 .f32) (x4 : Vec F S1024x64 .f32) (Q : Vec F S8192x64 .f32) (E : Vec F S64x64 .f32)
    (Em : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ owns (c : Thread nD τ) scQ fullShare Q ∗ owns (c : Thread nD τ) scE fullShare E
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
            ∗ owns (c : Thread nD τ) arg8 fullShare (k0_pay5 (rowsOf i h3 Q) E x4)
            ∗ owns (c : Thread nD τ) scQ fullShare Q ∗ owns (c : Thread nD τ) scE fullShare E) -∗ K ⟨⟩))
      ⊢ wp frame (wpE (defs₀ (F := F)) Variants.none c none) Em
          (cc0__fused_kernel i arg3 harg3 arg4 harg4 arg5 harg5 arg6 harg6 arg7 harg7 arg8 harg8 scQ (Memref.isWhole_whole _) scE (Memref.isWhole_whole _)) K := by
  simp only [cc0__fused_kernel_eq_skeleton]; unfold cc0__fused_kernel_skel
  simp only [Prog.lift, Prog.bind_op, Prog.bind_ret, Prog.bind_assoc, Prog.pure_eq_ret, dif_neg h1, dif_neg h2, dif_pos h3]
  unfold owns
  iintro ⟨H3, H4, H5, H6, ⟨%f7, %hf7, H7⟩, ⟨%d8, %f8, -, H8⟩, ⟨%fQ, %hfQ, HQ⟩, ⟨%fE, %hfE, HE⟩, Hk⟩
  iapply (wp_load_rect Variants.none (c : Thread nD τ) none Em (m := scQ) (r := rectR i h3) (View.set_slice_subset _ _)) $$ HQ
  iintro HQ
  iapply (wp_load_rect Variants.none (c : Thread nD τ) none Em (m := scE) (r := Rect.unit (s := S64x64) ![0, 0] S64x64.size inb_S64x64_S64x64_0_0) (View.set_slice_subset _ _)) $$ HE
  iintro HE
  iapply (wp_load_rect Variants.none (c : Thread nD τ) none Em (m := arg7) (r := Rect.unit (s := S1024x64) ![0, 0] S1024x64.size inb_S1024x64_S1024x64_0_0) (View.set_slice_subset _ _)) $$ H7
  iintro H7
  iapply (wp_load_rect Variants.none (c : Thread nD τ) none Em (m := arg8) (r := Rect.unit (s := S1x2048x1024) ![0, 0, 0] S1x2048x1024.size inb_S1x2048x1024_S1x2048x1024_0_0_0) (View.set_slice_subset _ _)) $$ H8
  iintro H8
  iapply (wp_store Variants.none (c : Thread nD τ) none Em (m := arg8) (r := Rect.unit (s := S1x2048x1024) ![0, 0, 0] S1x2048x1024.size inb_S1x2048x1024_S1x2048x1024_0_0_0) (Mk := Finset.univ) (View.set_slice_subset _ _)) $$ H8
  iintro H8
  rw [wp_ret]; imodintro
  iapply Hk
  isplitl [H3]; · iexact H3
  isplitl [H4]; · iexact H4
  isplitl [H5]; · iexact H5
  isplitl [H6]; · iexact H6
  isplitl [H7]
  · iexists f7; isplitr; · ipureintro; exact hf7
    iexact H7
  isplitl [H8]
  · iexists _; isplitr
    swap; · iexact H8
    ipureintro
    have eQ : (scQ.access (rectR i h3)).read (Elt F) fQ = rowsOf i h3 Q := by rw [← hfQ]; rfl
    rw [read_write_unit_zero c arg8 zero3, read_unit_zero c scE zero2, read_unit_zero c arg7 zero2, hfE, hf7, eQ]
  isplitl [HQ]
  · iexists fQ; isplitr; · ipureintro; exact hfQ
    iexact HQ
  iexists fE; isplitr; · ipureintro; exact hfE
  iexact HE

/-! ## The first phase -/

/-- A first-phase point after the first tile: the query rows stored over `Q`, the energy `E` added to. -/
theorem run_acc (c : Dev nD) (i : grid0.Coords) (h1 : ¬cond1 i) (h2 : cond2 i) (h3 : ¬cond3 i)
    (arg3 : Memref sig .tc .vmem S1x2048x1024 .f32) (harg3 : arg3.IsWhole) (arg4 : Memref sig .tc .vmem S64x1024 .f32) (harg4 : arg4.IsWhole)
    (arg5 : Memref sig .tc .vmem S64x1024 .f32) (harg5 : arg5.IsWhole) (arg6 : Memref sig .tc .vmem S64x1024 .f32) (harg6 : arg6.IsWhole)
    (arg7 : Memref sig .tc .vmem S1024x64 .f32) (harg7 : arg7.IsWhole) (arg8 : Memref sig .tc .vmem S1x2048x1024 .f32) (harg8 : arg8.IsWhole)
    (x0 : Vec F S1x2048x1024 .f32) (x1 x2 x3 : Vec F S64x1024 .f32) (x4 : Vec F S1024x64 .f32) (xo : Vec F S1x2048x1024 .f32) (Q : Vec F S8192x64 .f32) (E : Vec F S64x64 .f32)
    (Em : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xo
        ∗ owns (c : Thread nD τ) scQ fullShare Q ∗ owns (c : Thread nD τ) scE fullShare E
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xo
            ∗ owns (c : Thread nD τ) scQ fullShare (storedRows i h2 Q (k0_pay3 x0 x1)) ∗ owns (c : Thread nD τ) scE fullShare (k0_pay4 x0 x2 x3 E)) -∗ K ⟨⟩))
      ⊢ wp frame (wpE (defs₀ (F := F)) Variants.none c none) Em
          (cc0__fused_kernel i arg3 harg3 arg4 harg4 arg5 harg5 arg6 harg6 arg7 harg7 arg8 harg8 scQ (Memref.isWhole_whole _) scE (Memref.isWhole_whole _)) K := by
  simp only [cc0__fused_kernel_eq_skeleton]; unfold cc0__fused_kernel_skel
  simp only [Prog.lift, Prog.bind_op, Prog.bind_ret, Prog.bind_assoc, Prog.pure_eq_ret, dif_neg h1, dif_pos h2, dif_neg h3]
  unfold owns
  iintro ⟨⟨%f3, %hf3, H3⟩, ⟨%f4, %hf4, H4⟩, ⟨%f5, %hf5, H5⟩, ⟨%f6, %hf6, H6⟩, H7, H8, ⟨%fQ, %hfQ, HQ⟩, ⟨%fE, %hfE, HE⟩, Hk⟩
  obtain rfl := (Memref.isWhole_whole cc0_scratch0).eq_unread hfQ
  iapply (wp_load_rect Variants.none (c : Thread nD τ) none Em (m := arg3) (r := Rect.unit (s := S1x2048x1024) ![0, 0, 0] S1x2048x1024.size inb_S1x2048x1024_S1x2048x1024_0_0_0) (View.set_slice_subset _ _)) $$ H3
  iintro H3
  iapply (wp_load_rect Variants.none (c : Thread nD τ) none Em (m := arg4) (r := Rect.unit (s := S64x1024) ![0, 0] S64x1024.size inb_S64x1024_S64x1024_0_0) (View.set_slice_subset _ _)) $$ H4
  iintro H4
  iapply (wp_load_rect Variants.none (c : Thread nD τ) none Em (m := arg5) (r := Rect.unit (s := S64x1024) ![0, 0] S64x1024.size inb_S64x1024_S64x1024_0_0) (View.set_slice_subset _ _)) $$ H5
  iintro H5
  iapply (wp_load_rect Variants.none (c : Thread nD τ) none Em (m := arg6) (r := Rect.unit (s := S64x1024) ![0, 0] S64x1024.size inb_S64x1024_S64x1024_0_0) (View.set_slice_subset _ _)) $$ H6
  iintro H6
  iapply (wp_load_rect Variants.none (c : Thread nD τ) none Em (m := scQ) (r := rectW i h2) (View.set_slice_subset _ _)) $$ HQ
  iintro HQ
  iapply (wp_store Variants.none (c : Thread nD τ) none Em (m := scQ) (r := rectW i h2) (Mk := Finset.univ) (View.set_slice_subset _ _)) $$ HQ
  iintro HQ
  iapply (wp_load_rect Variants.none (c : Thread nD τ) none Em (m := scE) (r := Rect.unit (s := S64x64) ![0, 0] S64x64.size inb_S64x64_S64x64_0_0) (View.set_slice_subset _ _)) $$ HE
  iintro HE
  iapply (wp_load_rect Variants.none (c : Thread nD τ) none Em (m := scE) (r := Rect.unit (s := S64x64) ![0, 0] S64x64.size inb_S64x64_S64x64_0_0) (View.set_slice_subset _ _)) $$ HE
  iintro HE
  iapply (wp_store Variants.none (c : Thread nD τ) none Em (m := scE) (r := Rect.unit (s := S64x64) ![0, 0] S64x64.size inb_S64x64_S64x64_0_0) (Mk := Finset.univ) (View.set_slice_subset _ _)) $$ HE
  iintro HE
  rw [wp_ret]; imodintro
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]; · iexact H7
  isplitl [H8]; · iexact H8
  isplitl [HQ]
  · iexists _; isplitr
    swap; · iexact HQ
    ipureintro
    rw [read_unit_zero c arg3 zero3, read_unit_zero c arg4 zero2, hf3, hf4]
    rfl
  iexists _; isplitr
  swap; · iexact HE
  ipureintro
  rw [read_write_unit_zero c scE zero2, read_unit_zero c arg3 zero3, read_unit_zero c arg5 zero2, read_unit_zero c arg6 zero2, read_unit_zero c scE zero2, hf3, hf5, hf6, hfE]

/-- A first-phase point at the first tile: the energy set to zero first, then as at the other tiles. What the scratch buffers
    held before does not matter for the energy; the query rows are stored over `Q`. -/
theorem run_init (c : Dev nD) (i : grid0.Coords) (h1 : cond1 i) (h2 : cond2 i) (h3 : ¬cond3 i)
    (arg3 : Memref sig .tc .vmem S1x2048x1024 .f32) (harg3 : arg3.IsWhole) (arg4 : Memref sig .tc .vmem S64x1024 .f32) (harg4 : arg4.IsWhole)
    (arg5 : Memref sig .tc .vmem S64x1024 .f32) (harg5 : arg5.IsWhole) (arg6 : Memref sig .tc .vmem S64x1024 .f32) (harg6 : arg6.IsWhole)
    (arg7 : Memref sig .tc .vmem S1024x64 .f32) (harg7 : arg7.IsWhole) (arg8 : Memref sig .tc .vmem S1x2048x1024 .f32) (harg8 : arg8.IsWhole)
    (x0 : Vec F S1x2048x1024 .f32) (x1 x2 x3 : Vec F S64x1024 .f32) (x4 : Vec F S1024x64 .f32) (xo : Vec F S1x2048x1024 .f32) (Q : Vec F S8192x64 .f32)
    (Em : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xo
        ∗ owns (c : Thread nD τ) scQ fullShare Q ∗ (∃ d, owns (c : Thread nD τ) scE fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xo
            ∗ owns (c : Thread nD τ) scQ fullShare (storedRows i h2 Q (k0_pay3 x0 x1)) ∗ owns (c : Thread nD τ) scE fullShare (k0_pay4 x0 x2 x3 k0_pay1)) -∗ K ⟨⟩))
      ⊢ wp frame (wpE (defs₀ (F := F)) Variants.none c none) Em
          (cc0__fused_kernel i arg3 harg3 arg4 harg4 arg5 harg5 arg6 harg6 arg7 harg7 arg8 harg8 scQ (Memref.isWhole_whole _) scE (Memref.isWhole_whole _)) K := by
  simp only [cc0__fused_kernel_eq_skeleton]; unfold cc0__fused_kernel_skel
  simp only [Prog.lift, Prog.bind_op, Prog.bind_ret, Prog.bind_assoc, Prog.pure_eq_ret, dif_pos h1, dif_pos h2, dif_neg h3]
  unfold owns
  iintro ⟨⟨%f3, %hf3, H3⟩, ⟨%f4, %hf4, H4⟩, ⟨%f5, %hf5, H5⟩, ⟨%f6, %hf6, H6⟩, H7, H8, ⟨%fQ, %hfQ, HQ⟩, ⟨%dE, %fE, -, HE⟩, Hk⟩
  obtain rfl := (Memref.isWhole_whole cc0_scratch0).eq_unread hfQ
  iapply (wp_load_rect Variants.none (c : Thread nD τ) none Em (m := scE) (r := Rect.unit (s := S64x64) ![0, 0] S64x64.size inb_S64x64_S64x64_0_0) (View.set_slice_subset _ _)) $$ HE
  iintro HE
  iapply (wp_store Variants.none (c : Thread nD τ) none Em (m := scE) (r := Rect.unit (s := S64x64) ![0, 0] S64x64.size inb_S64x64_S64x64_0_0) (Mk := Finset.univ) (View.set_slice_subset _ _)) $$ HE
  iintro HE
  iapply (wp_load_rect Variants.none (c : Thread nD τ) none Em (m := arg3) (r := Rect.unit (s := S1x2048x1024) ![0, 0, 0] S1x2048x1024.size inb_S1x2048x1024_S1x2048x1024_0_0_0) (View.set_slice_subset _ _)) $$ H3
  iintro H3
  iapply (wp_load_rect Variants.none (c : Thread nD τ) none Em (m := arg4) (r := Rect.unit (s := S64x1024) ![0, 0] S64x1024.size inb_S64x1024_S64x1024_0_0) (View.set_slice_subset _ _)) $$ H4
  iintro H4
  iapply (wp_load_rect Variants.none (c : Thread nD τ) none Em (m := arg5) (r := Rect.unit (s := S64x1024) ![0, 0] S64x1024.size inb_S64x1024_S64x1024_0_0) (View.set_slice_subset _ _)) $$ H5
  iintro H5
  iapply (wp_load_rect Variants.none (c : Thread nD τ) none Em (m := arg6) (r := Rect.unit (s := S64x1024) ![0, 0] S64x1024.size inb_S64x1024_S64x1024_0_0) (View.set_slice_subset _ _)) $$ H6
  iintro H6
  iapply (wp_load_rect Variants.none (c : Thread nD τ) none Em (m := scQ) (r := rectW i h2) (View.set_slice_subset _ _)) $$ HQ
  iintro HQ
  iapply (wp_store Variants.none (c : Thread nD τ) none Em (m := scQ) (r := rectW i h2) (Mk := Finset.univ) (View.set_slice_subset _ _)) $$ HQ
  iintro HQ
  iapply (wp_load_rect Variants.none (c : Thread nD τ) none Em (m := scE) (r := Rect.unit (s := S64x64) ![0, 0] S64x64.size inb_S64x64_S64x64_0_0) (View.set_slice_subset _ _)) $$ HE
  iintro HE
  iapply (wp_load_rect Variants.none (c : Thread nD τ) none Em (m := scE) (r := Rect.unit (s := S64x64) ![0, 0] S64x64.size inb_S64x64_S64x64_0_0) (View.set_slice_subset _ _)) $$ HE
  iintro HE
  iapply (wp_store Variants.none (c : Thread nD τ) none Em (m := scE) (r := Rect.unit (s := S64x64) ![0, 0] S64x64.size inb_S64x64_S64x64_0_0) (Mk := Finset.univ) (View.set_slice_subset _ _)) $$ HE
  iintro HE
  rw [wp_ret]; imodintro
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]; · iexact H7
  isplitl [H8]; · iexact H8
  isplitl [HQ]
  · iexists _; isplitr
    swap; · iexact HQ
    ipureintro
    rw [read_unit_zero c arg3 zero3, read_unit_zero c arg4 zero2, hf3, hf4]
    rfl
  iexists _; isplitr
  swap; · iexact HE
  ipureintro
  rw [read_write_unit_zero c scE zero2, read_unit_zero c arg3 zero3, read_unit_zero c arg5 zero2, read_unit_zero c arg6 zero2, read_unit_zero c scE zero2, hf3, hf5, hf6, read_write_unit_zero c scE zero2]

end Cert.KernelIdeal.Hand

end
-- ==== Proof.Data.lean ====
/-
  The proof data of the one pipeline, the body at a generic point, and the run.

  The 32 grid points run in order t = 8 b + 4 p + n. What the kernel carries from point to point is in its two scratch
  buffers: the energy accumulator, whose contents after each point are named by recursion on the point (`eAt`: reset and
  added to at the first tile of a batch, added to at its other first-phase points, kept through its second phase), and the
  query rows, of which the invariant says only what later points read: after point n, for every first-phase point s ≤ n of
  the same batch, the rows that s stored still hold the projection of s's block of x (`QInv`). The output block a
  second-phase point leaves is the context of those rows against the finished energy (`outAt`).
-/
import proofs.«135907_j39986145526411_2_alg».proof.Proof.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, decided over the grid -/

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ t.val / 4 % 2 = 0 :=
  (by decide +kernel : ∀ t : Fin grid0.N, cond2 (grid0.coords t) ↔ t.val / 4 % 2 = 0)
theorem hcond3 : ∀ t : Fin cfg0.N, cond3 (grid0.coords t) ↔ ¬t.val / 4 % 2 = 0 :=
  (by decide +kernel : ∀ t : Fin grid0.N, cond3 (grid0.coords t) ↔ ¬t.val / 4 % 2 = 0)
/-- The tile of a point. -/
theorem htile : ∀ t : Fin cfg0.N, ((grid0.coords t) 2).val = t.val % 4 :=
  (by decide +kernel : ∀ t : Fin grid0.N, ((grid0.coords t) 2).val = t.val % 4)

/-- The inputs' windows are never idle. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
/-- The output's window is idle through the first phase and is not written back there; in the second phase it is live. -/
theorem idle5 : ∀ t : Fin cfg0.N, t.val / 4 % 2 = 0 → cfg0.idle 5 (grid0.coords t) = true :=
  (by decide +kernel : ∀ t : Fin grid0.N, t.val / 4 % 2 = 0 → cfg0.idle 5 (grid0.coords t) = true)
theorem noFlush5 : ∀ t : Fin cfg0.N, t.val / 4 % 2 = 0 → (cfg0.win 5).flush t = false :=
  (by decide +kernel : ∀ t : Fin grid0.N, t.val / 4 % 2 = 0 → win0_5.flush t = false)
theorem live5 : ∀ t : Fin cfg0.N, ¬t.val / 4 % 2 = 0 → cfg0.idle 5 (grid0.coords t) = false :=
  (by decide +kernel : ∀ t : Fin grid0.N, ¬t.val / 4 % 2 = 0 → cfg0.idle 5 (grid0.coords t) = false)

/-! ## The staging buffers at a point -/

abbrev ms0 (t : Fin cfg0.N) : Memref sig .tc .vmem S1x2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2048x1024 .f32 := win0_5.stage (cfg0.slots t 5)
abbrev hs5 (t : Fin cfg0.N) : (ms5 t).IsWhole := hstage0_5 ((cfg0.slots t 5).cast nbuf0_5)

/-- The class's invariant with the two scratch buffers as memrefs owned at some contents. -/
theorem PhiA_eq (c : Dev nD) :
    (Pipeline.ΦA spec0 c : sProp 𝕄)
      = iprop(iprop((∃ d, owns (c : Thread nD τ) scQ fullShare d) ∗ (∃ d, owns (c : Thread nD τ) scE fullShare d)) ∗ (∃ r, prngReg c r)) := by
  unfold Pipeline.ΦA; rw [scopedRest0_eq]; simp only [scQ, scE, owns_whole]; try rfl

/-! ## What the scratch buffers and the output block hold after each point -/

/-- The energy accumulator after point `n`. -/
def eAt (c : Dev nD) : (n : ℕ) → n < cfg0.N → Vec F S64x64 .f32
  | 0, hn => k0_pay4 (iblk m c 0 ⟨0, hn⟩) (iblk m c 2 ⟨0, hn⟩) (iblk m c 3 ⟨0, hn⟩) k0_pay1
  | n + 1, hn =>
    if (n + 1) / 4 % 2 = 0 then
      k0_pay4 (iblk m c 0 ⟨n + 1, hn⟩) (iblk m c 2 ⟨n + 1, hn⟩) (iblk m c 3 ⟨n + 1, hn⟩)
        (if (n + 1) % 8 = 0 then k0_pay1 else eAt c n (Nat.lt_of_succ_lt hn))
    else eAt c n (Nat.lt_of_succ_lt hn)

/-- At a batch's first point: the first tile's contribution over zero. -/
theorem eAt_init (c : Dev nD) (t : Fin cfg0.N) (h2 : t.val / 4 % 2 = 0) (h1 : t.val % 8 = 0) :
    eAt m c t.val t.isLt = k0_pay4 (iblk m c 0 t) (iblk m c 2 t) (iblk m c 3 t) k0_pay1 := by
  obtain ⟨n, hn⟩ := t
  cases n with
  | zero => rfl
  | succ n => exact (if_pos h2).trans (congrArg _ (if_pos h1))

/-- At its other first-phase points: the tile's contribution over what the point before left. -/
theorem eAt_acc (c : Dev nD) (t : Fin cfg0.N) (h2 : t.val / 4 % 2 = 0) (h1 : ¬t.val % 8 = 0) :
    eAt m c t.val t.isLt = k0_pay4 (iblk m c 0 t) (iblk m c 2 t) (iblk m c 3 t)
      (eAt m c (t.val - 1) (Nat.lt_of_le_of_lt (Nat.sub_le _ _) t.isLt)) := by
  obtain ⟨n, hn⟩ := t
  cases n with
  | zero => exact absurd (Nat.zero_mod _) h1
  | succ n => exact (if_pos h2).trans (congrArg _ (if_neg h1))

/-- Through its second phase: kept. -/
theorem eAt_keep (c : Dev nD) (t : Fin cfg0.N) (h2 : ¬t.val / 4 % 2 = 0) :
    eAt m c t.val t.isLt = eAt m c (t.val - 1) (Nat.lt_of_le_of_lt (Nat.sub_le _ _) t.isLt) := by
  obtain ⟨n, hn⟩ := t
  cases n with
  | zero => exact (h2 (by show (0 : ℕ) / 4 % 2 = 0; decide)).elim
  | succ n => exact if_neg h2

/-- What later points need of the query rows after point `n`: every first-phase point `s ≤ n` of `n`'s batch finds the rows it
    stored — rows 2048 (s mod 4) onward — at the projection of its block of x. -/
def QInv (c : Dev nD) (n : ℕ) (Q : Vec F S8192x64 .f32) : Prop :=
  ∀ s : Fin cfg0.N, s.val / 8 = n / 8 → s.val / 4 % 2 = 0 → s.val ≤ n →
    ∀ (y : S2048x64.Idx) (z : S8192x64.Idx), (z 0).val = 2048 * (s.val % 4) + (y 0).val → (z 1).val = (y 1).val →
      Q z = k0_pay3 (iblk m c 0 s) (iblk m c 1 s) y

/-- The output block after a second-phase point `n`: the context of the rows point `n - 4` stored, against the energy. -/
def outAt (c : Dev nD) (n : ℕ) (hn : n < cfg0.N) : Vec F S1x2048x1024 .f32 :=
  k0_pay5 (k0_pay3 (iblk m c 0 ⟨n - 4, Nat.lt_of_le_of_lt (Nat.sub_le _ _) hn⟩) (iblk m c 1 ⟨n - 4, Nat.lt_of_le_of_lt (Nat.sub_le _ _) hn⟩))
    (eAt m c n hn) (iblk m c 4 ⟨n, hn⟩)

/-- The region invariant before position `n`: before the first point the class's; afterwards the energy accumulator at
    `eAt`, the query rows at some contents satisfying `QInv`, the generator register at some state. -/
def PhiS (c : Dev nD) : (n : ℕ) → n ≤ cfg0.N → sProp 𝕄
  | 0, _ => Pipeline.ΦA spec0 c
  | n + 1, hn => iprop(owns (c : Thread nD τ) scE fullShare (eAt m c n hn) ∗ (∃ Q, owns (c : Thread nD τ) scQ fullShare Q ∗ ⌜QInv m c n Q⌝) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scE fullShare (eAt m c n hn) ∗ (∃ Q, owns (c : Thread nD τ) scQ fullShare Q ∗ ⌜QInv m c n Q⌝) ∗ (∃ r, prngReg c r)) := rfl

theorem PhiS_pos (c : Dev nD) (n : ℕ) (h : n ≤ cfg0.N) (hz : n ≠ 0) :
    PhiS m c n h = iprop(owns (c : Thread nD τ) scE fullShare (eAt m c (n - 1) (by omega)) ∗ (∃ Q, owns (c : Thread nD τ) scQ fullShare Q ∗ ⌜QInv m c (n - 1) Q⌝) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The invariant on the query rows, step by step -/

/-- Where the rows a first-phase point stores sit: row 2048 (t mod 4) + y₀, column y₁. -/
theorem rectW_emb_val (t : Fin cfg0.N) (h2 : cond2 (grid0.coords t)) (y : S2048x64.Idx) :
    (((rectW (grid0.coords t) h2).emb y) 0).val = 2048 * (t.val % 4) + (y 0).val
      ∧ (((rectW (grid0.coords t) h2).emb y) 1).val = (y 1).val := by
  have ht := htile t
  refine ⟨?_, ?_⟩ <;> rw [Rect.emb_apply]
  · show (k0_off1 (grid0.coords t)) 0 + 1 * (y 0).val = _
    rw [k0_off1_eq]
    show 2048 * ((grid0.coords t) 2).val + 1 * (y 0).val = _
    omega
  · show (k0_off1 (grid0.coords t)) 1 + 1 * (y 1).val = _
    rw [k0_off1_eq]
    show 0 + 1 * (y 1).val = _
    omega

/-- The same for the rows a second-phase point reads. -/
theorem rectR_emb_val (t : Fin cfg0.N) (h3 : cond3 (grid0.coords t)) (y : S2048x64.Idx) :
    (((rectR (grid0.coords t) h3).emb y) 0).val = 2048 * (t.val % 4) + (y 0).val
      ∧ (((rectR (grid0.coords t) h3).emb y) 1).val = (y 1).val := by
  have ht := htile t
  refine ⟨?_, ?_⟩ <;> rw [Rect.emb_apply]
  · show (k0_off2 (grid0.coords t)) 0 + 1 * (y 0).val = _
    rw [k0_off2_eq]
    show 2048 * ((grid0.coords t) 2).val + 1 * (y 0).val = _
    omega
  · show (k0_off2 (grid0.coords t)) 1 + 1 * (y 1).val = _
    rw [k0_off2_eq]
    show 0 + 1 * (y 1).val = _
    omega

/-- A first-phase point's store keeps the invariant: its own rows now hold its projection, and the rows of the batch's
    earlier points are other rows. -/
theorem QInv_store (c : Dev nD) (t : Fin cfg0.N) (hp : t.val / 4 % 2 = 0) (h2 : cond2 (grid0.coords t)) (Q : Vec F S8192x64 .f32)
    (hprev : ¬t.val % 8 = 0 → QInv m c (t.val - 1) Q) :
    QInv m c t.val (storedRows (grid0.coords t) h2 Q (k0_pay3 (iblk m c 0 t) (iblk m c 1 t))) := by
  intro s hb hs hle y z hz0 hz1
  have hN : t.val < 32 := lt_of_lt_of_eq t.isLt (show cfg0.N = 32 from N_0)
  by_cases hst : s.val = t.val
  · obtain rfl : s = t := Fin.ext hst
    obtain ⟨e0, e1⟩ := rectW_emb_val s h2 y
    have hz : z = (rectW (grid0.coords s) h2).emb y := by
      funext a; apply Fin.ext
      match a with
      | ⟨0, _⟩ => exact hz0.trans e0.symm
      | ⟨1, _⟩ => exact hz1.trans e1.symm
    rw [hz, storedRows_emb]
  · have hy0 : (y 0).val < 2048 := (y 0).isLt
    rw [storedRows_of_not_mem (grid0.coords t) h2 Q _ z (fun hmem => by
      have h0 : 2048 * ((grid0.coords t) 2).val ≤ (z 0).val ∧ (z 0).val < 2048 * ((grid0.coords t) 2).val + 2048 := by
        have := (Rect.mem_set_unit.mp hmem) 0
        rw [k0_off1_eq] at this
        exact this
      have ht := htile t
      omega)]
    exact hprev (by omega) s (by omega) hs (by omega) y z hz0 hz1

/-- A second-phase point stores no query rows. -/
theorem QInv_keep (c : Dev nD) (t : Fin cfg0.N) (hp : ¬t.val / 4 % 2 = 0) (Q : Vec F S8192x64 .f32)
    (hprev : QInv m c (t.val - 1) Q) : QInv m c t.val Q := by
  intro s hb hs hle y z hz0 hz1
  have hN : t.val < 32 := lt_of_lt_of_eq t.isLt (show cfg0.N = 32 from N_0)
  exact hprev s (by omega) hs (by omega) y z hz0 hz1

/-- The rows a second-phase point reads are the projection the point four before it stored. -/
theorem rows_eq (c : Dev nD) (t : Fin cfg0.N) (hp : ¬t.val / 4 % 2 = 0) (h3 : cond3 (grid0.coords t)) (Q : Vec F S8192x64 .f32)
    (hQ : QInv m c (t.val - 1) Q) :
    rowsOf (grid0.coords t) h3 Q
      = k0_pay3 (iblk m c 0 ⟨t.val - 4, Nat.lt_of_le_of_lt (Nat.sub_le _ _) t.isLt⟩) (iblk m c 1 ⟨t.val - 4, Nat.lt_of_le_of_lt (Nat.sub_le _ _) t.isLt⟩) := by
  have hN : t.val < 32 := lt_of_lt_of_eq t.isLt (show cfg0.N = 32 from N_0)
  funext y
  obtain ⟨e0, e1⟩ := rectR_emb_val t h3 y
  exact hQ ⟨t.val - 4, Nat.lt_of_le_of_lt (Nat.sub_le _ _) t.isLt⟩ (by show (t.val - 4) / 8 = (t.val - 1) / 8; omega)
    (by show (t.val - 4) / 4 % 2 = 0; omega) (by show t.val - 4 ≤ t.val - 1; omega) y _
    (by rw [e0]; show _ = 2048 * ((t.val - 4) % 4) + _; omega) e1

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
/-- The body at any point: the schedule's closed forms say which case the point is in; the invariant hands the run the
    scratch buffers at what the point before left (at anything before the first point) and takes them back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  by_cases hp : t.val / 4 % 2 = 0
  · rw [Dat.leavesExact_idle (dats m 0 c) 5 t (idle5 t hp) (noFlush5 t hp)]
    by_cases hi : t.val % 8 = 0
    · rw [eAt_init m c t hp hi]
      by_cases hz : t.val = 0
      · rw [PhiS_castSucc m c t, PhiS_zero m c _ _ hz, PhiA_eq]
        iintro ⟨⟨⟨⟨%dQ, HQ⟩, HE⟩, Hg⟩, Ho, ⟨%d0, H0⟩, ⟨%d1, H1⟩, ⟨%d2, H2⟩, ⟨%d3, H3⟩, ⟨%d4, H4⟩, ⟨%d5, H5⟩⟩
        iapply (run_init c (grid0.coords t) ((hcond1 t).mpr hi) ((hcond2 t).mpr hp) (fun h => (hcond3 t).mp h hp) (ms0 t) (hs0 t) (ms1 t) (hs1 t) (ms2 t) (hs2 t) (ms3 t) (hs3 t) (ms4 t) (hs4 t) (ms5 t) (hs5 t)
          (iblk m c 0 t) (iblk m c 1 t) (iblk m c 2 t) (iblk m c 3 t) (iblk m c 4 t) _ dQ Set.univ _)
        isplitl [H0]; · iexact H0
        isplitl [H1]; · iexact H1
        isplitl [H2]; · iexact H2
        isplitl [H3]; · iexact H3
        isplitl [H4]; · iexact H4
        isplitl [H5]; · iexact H5
        isplitl [HQ]; · iexact HQ
        isplitl [HE]; · iexact HE
        iintro ⟨H0, H1, H2, H3, H4, H5, HQ, HE⟩
        isplitl [HQ HE Hg]
        · isplitl [HE]; · iexact HE
          isplitl [HQ]
          · iexists _; isplitl [HQ]; · iexact HQ
            ipureintro; exact QInv_store m c t hp _ dQ (fun h => absurd hi h)
          iexact Hg
        isplitl [Ho]; · iexact Ho
        isplitl [H0]; · iexact H0
        isplitl [H1]; · iexact H1
        isplitl [H2]; · iexact H2
        isplitl [H3]; · iexact H3
        isplitl [H4]; · iexact H4
        iexists d5; iexact H5
      · rw [PhiS_castSucc m c t, PhiS_pos m c _ _ hz]
        iintro ⟨⟨HE, ⟨%Q, HQ, %hQ⟩, Hg⟩, Ho, ⟨%d0, H0⟩, ⟨%d1, H1⟩, ⟨%d2, H2⟩, ⟨%d3, H3⟩, ⟨%d4, H4⟩, ⟨%d5, H5⟩⟩
        iapply (run_init c (grid0.coords t) ((hcond1 t).mpr hi) ((hcond2 t).mpr hp) (fun h => (hcond3 t).mp h hp) (ms0 t) (hs0 t) (ms1 t) (hs1 t) (ms2 t) (hs2 t) (ms3 t) (hs3 t) (ms4 t) (hs4 t) (ms5 t) (hs5 t)
          (iblk m c 0 t) (iblk m c 1 t) (iblk m c 2 t) (iblk m c 3 t) (iblk m c 4 t) _ Q Set.univ _)
        isplitl [H0]; · iexact H0
        isplitl [H1]; · iexact H1
        isplitl [H2]; · iexact H2
        isplitl [H3]; · iexact H3
        isplitl [H4]; · iexact H4
        isplitl [H5]; · iexact H5
        isplitl [HQ]; · iexact HQ
        isplitl [HE]; · iexists _; iexact HE
        iintro ⟨H0, H1, H2, H3, H4, H5, HQ, HE⟩
        isplitl [HQ HE Hg]
        · isplitl [HE]; · iexact HE
          isplitl [HQ]
          · iexists _; isplitl [HQ]; · iexact HQ
            ipureintro; exact QInv_store m c t hp _ Q (fun h => absurd hi h)
          iexact Hg
        isplitl [Ho]; · iexact Ho
        isplitl [H0]; · iexact H0
        isplitl [H1]; · iexact H1
        isplitl [H2]; · iexact H2
        isplitl [H3]; · iexact H3
        isplitl [H4]; · iexact H4
        iexists d5; iexact H5
    · have hz : t.val ≠ 0 := fun h => hi (by rw [h])
      rw [eAt_acc m c t hp hi, PhiS_castSucc m c t, PhiS_pos m c _ _ hz]
      iintro ⟨⟨HE, ⟨%Q, HQ, %hQ⟩, Hg⟩, Ho, ⟨%d0, H0⟩, ⟨%d1, H1⟩, ⟨%d2, H2⟩, ⟨%d3, H3⟩, ⟨%d4, H4⟩, ⟨%d5, H5⟩⟩
      iapply (run_acc c (grid0.coords t) (fun h => hi ((hcond1 t).mp h)) ((hcond2 t).mpr hp) (fun h => (hcond3 t).mp h hp) (ms0 t) (hs0 t) (ms1 t) (hs1 t) (ms2 t) (hs2 t) (ms3 t) (hs3 t) (ms4 t) (hs4 t) (ms5 t) (hs5 t)
          (iblk m c 0 t) (iblk m c 1 t) (iblk m c 2 t) (iblk m c 3 t) (iblk m c 4 t) _ Q _ Set.univ _)
      isplitl [H0]; · iexact H0
      isplitl [H1]; · iexact H1
      isplitl [H2]; · iexact H2
      isplitl [H3]; · iexact H3
      isplitl [H4]; · iexact H4
      isplitl [H5]; · iexact H5
      isplitl [HQ]; · iexact HQ
      isplitl [HE]; · iexact HE
      iintro ⟨H0, H1, H2, H3, H4, H5, HQ, HE⟩
      isplitl [HQ HE Hg]
      · isplitl [HE]; · iexact HE
        isplitl [HQ]
        · iexists _; isplitl [HQ]; · iexact HQ
          ipureintro; exact QInv_store m c t hp _ Q (fun _ => hQ)
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => hp (by rw [h])
    have h3 : cond3 (grid0.coords t) := (hcond3 t).mpr hp
    rw [show (dats m 0 c).leavesExact 5 t = owns (c : Thread nD τ) (ms5 t) fullShare ((dats m 0 c).after 5 t) from by
      unfold Dat.leavesExact; rw [live5 t hp], after5]
    rw [eAt_keep m c t hp, PhiS_castSucc m c t, PhiS_pos m c _ _ hz]
    iintro ⟨⟨HE, ⟨%Q, HQ, %hQ⟩, Hg⟩, Ho, ⟨%d0, H0⟩, ⟨%d1, H1⟩, ⟨%d2, H2⟩, ⟨%d3, H3⟩, ⟨%d4, H4⟩, ⟨%d5, H5⟩⟩
    have hout : k0_pay5 (rowsOf (grid0.coords t) h3 Q) (eAt m c (t.val - 1) (Nat.lt_of_le_of_lt (Nat.sub_le _ _) t.isLt)) (iblk m c 4 t)
        = outAt m c t.val t.isLt := by
      unfold outAt; rw [rows_eq m c t hp h3 Q hQ, eAt_keep m c t hp]
    iapply (run_out c (grid0.coords t) (fun h => by have := (hcond1 t).mp h; omega) (fun h => hp ((hcond2 t).mp h)) h3 (ms0 t) (hs0 t) (ms1 t) (hs1 t) (ms2 t) (hs2 t) (ms3 t) (hs3 t) (ms4 t) (hs4 t) (ms5 t) (hs5 t)
          (iblk m c 0 t) (iblk m c 1 t) (iblk m c 2 t) (iblk m c 3 t) (iblk m c 4 t) Q _ Set.univ _)
    isplitl [H0]; · iexact H0
    isplitl [H1]; · iexact H1
    isplitl [H2]; · iexact H2
    isplitl [H3]; · iexact H3
    isplitl [H4]; · iexact H4
    isplitl [H5]; · iexists _; iexact H5
    isplitl [HQ]; · iexact HQ
    isplitl [HE]; · iexact HE
    iintro ⟨H0, H1, H2, H3, H4, H5, HQ, HE⟩
    isplitl [HQ HE Hg]
    · isplitl [HE]; · iexact HE
      isplitl [HQ]
      · iexists _; isplitl [HQ]; · iexact HQ
        ipureintro; exact QInv_keep m c t hp Q hQ
      iexact Hg
    isplitl [Ho]; · iexact Ho
    isplitl [H0]; · iexact H0
    isplitl [H1]; · iexact H1
    isplitl [H2]; · iexact H2
    isplitl [H3]; · iexact H3
    isplitl [H4]; · iexact H4
    rw [← hout]; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: what the scratch buffers hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HE, ⟨%Q, HQ, -⟩, Hg⟩
  isplitl [HQ HE]
  · isplitl [HQ]; · iexists _; iexact HQ
    iexists _; iexact HE
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates, and every final state has each array of the pipeline at what the library
    computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs, nothing faults, the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.LibDot.lean ====
/-
  A matrix product with one contracted axis, read at an index as a sum over the contracted extent.
  For dimension numbers that contract the left operand's axis 1 with the right operand's axis 0, with no batch
  axes — the plain product of an [M, K] matrix with a [K, N] matrix — the operand indices at result index (p, q) and
  contraction index k are (p, k) and (k, q); so the sum over the contraction shape is the sum over k < K of
  lhs (p, k) · rhs (k, q). Both a kernel's accumulating product into a zero accumulator and the host's product
  without an accumulator are that sum at the extended reals.
-/
import Idealize.ShloMosaic.Lib.ValueIdx
import Idealize.ShloMosaic.PureOps.Ideal.Laws
import Idealize.ShloMosaic.Lib.KernelVsHost

noncomputable section

namespace Idealize.ShloMosaic.LibDot

open Idealize.ShloMosaic Idealize.ShloMosaic.ValueIdx

variable {sl sr so : Shape} (d : DotDims sl sr so)

/-- A non-contracting, non-batch axis of the left operand reads the result index at its position. -/
theorem lhsIdx_val_of_non {a : Fin sl.rank} (hb : a ∉ d.lhsBatch) (hn : a ∈ d.lhsNonContracting)
    (j : so.Idx) (k : d.contr.Idx) (p : Nat) (hp : p < so.rank) (hpe : d.lhsBatch.length + d.lhsNonContracting.idxOf a = p) :
    (d.lhsIdx j k a).val = (j ⟨p, hp⟩).val := by
  subst hpe
  unfold DotDims.lhsIdx
  rw [dif_neg hb, dif_pos hn]
  rfl

/-- A non-contracting, non-batch axis of the right operand reads the result index at its position. -/
theorem rhsIdx_val_of_non {a : Fin sr.rank} (hb : a ∉ d.rhsBatch) (hn : a ∈ d.rhsNonContracting)
    (j : so.Idx) (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold DotDims.rhsIdx
  rw [dif_neg hb, dif_pos hn]
  rfl

/-- The plain product's sum over the contraction shape is the sum over the contracted extent. -/
theorem sum_plain {M K N : ℕ} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  have hr : d.contr.rank = 1 := by rw [d.rank_contr, hlc]; rfl
  have hs : d.contr.size ⟨0, by omega⟩ = K := by
    have h := d.size_contr 0 (by rw [hlc]; exact Nat.one_pos)
    simp only [hlc, List.getElem_cons_zero] at h
    exact h
  refine ((Equiv.sum_comp (contrEquiv1 d K hr hs).symm _).symm).trans ?_
  refine Finset.sum_congr rfl fun k _ => ?_
  have hl : d.lhsIdx (ix2 p q) ((contrEquiv1 d K hr hs).symm k) = ix2 p k := by
    funext a; apply Fin.ext
    match a with
    | ⟨0, _⟩ =>
      exact lhsIdx_val_of_non d (a := 0) (by rw [hlb]; exact List.not_mem_nil) (by rw [hln]; exact List.mem_singleton.mpr rfl) _ _ 0 (Nat.zero_lt_two)
        (by rw [hlb, hln]; rfl)
    | ⟨1, _⟩ =>
      exact (d.lhsIdx_val_of_single (cl := 1) hlc _ _).trans (contrEquiv1_symm_val d K hr hs k)
  have hrr : d.rhsIdx (ix2 p q) ((contrEquiv1 d K hr hs).symm k) = ix2 k q := by
    funext a; apply Fin.ext
    match a with
    | ⟨0, _⟩ =>
      exact (d.rhsIdx_val_of_single (cr := 0) hrc _ _).trans (contrEquiv1_symm_val d K hr hs k)
    | ⟨1, _⟩ =>
      exact rhsIdx_val_of_non d (a := 1) (by rw [hrb]; exact List.not_mem_nil) (by rw [hrn]; exact List.mem_singleton.mpr rfl) _ _ 1 (Nat.one_lt_two)
        (by rw [hlb, hln, hrn]; rfl)
  rw [hl, hrr]

/-- A kernel's product accumulated into the zero splat, read at (p, q). -/
theorem matmul_zero_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) :=
  (Ideal.matmul_constant_zero_apply d prec lhs rhs (ix2 p q)).trans (sum_plain d hlc hrc hlb hrb hln hrn lhs rhs p q)

/-- The host's product, read at (p, q). -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  rw [← matmul_zero_eq_dotGeneral]
  exact matmul_zero_plain d hlc hrc hlb hrb hln hrn prec lhs rhs p q

end Idealize.ShloMosaic.LibDot

end
-- ==== Proof.Payloads.lean ====
/-
  The kernel's pure values read at an index, on the extended reals.

  Each value the kernel stores is one pure term over the values it loaded: a zero splat, a projection of a tile of x
  against a weight matrix, the tile's contribution Kᵀ V added to the running energy, and the scaled context against the
  output weights. Read at an index these are finite sums of products: a change of float format is the identity on the
  extended reals, a transpose swaps the two coordinates, a leading unit axis is dropped or added without moving an
  element, and a matrix product into the zero accumulator is the sum over the contracted extent.
-/
import proofs.«135907_j39986145526411_2_alg».proof.Proof.Gen.KernelIdeal.Skeleton
import proofs.«135907_j39986145526411_2_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The zero splat is the extended real zero at every index. -/
theorem pay1_apply (d e : Fin 64) : k0_pay1 (F := Ideal) (ix2 d e) = 0 := by
  unfold k0_pay1
  refine (congrFun (shapeCast_self _ _) _).trans ?_
  exact Ideal.ofBits_zero_f32

/-- The tile of x with its leading unit axis dropped (the change of float format is the identity). -/
theorem pay2_apply (x : Vec Ideal S1x2048x1024 .f32) (r : Fin 2048) (a : Fin 1024) :
    k0_pay2 (F := Ideal) x (ix2 r a) = x (ix3 (0 : Fin 1) r a) := by
  unfold k0_pay2
  exact shapeCast_1ab_ab_apply x _ r a

/-- A weight matrix with its format changed and its two axes swapped reads the matrix at the swapped index. -/
theorem wT_apply (w : Vec Ideal S64x1024 .f32) (h₁ : FTy.bits .bf16 < FTy.bits .f32)
    (h₂ : S64x1024.Transposes [1, 0] S1024x64) (a : Fin 1024) (d : Fin 64) :
    transpose S1024x64 [1, 0] (truncf (F := Ideal) .bf16 w h₁) h₂ (ix2 a d) = w (ix2 d a) :=
  transpose_ix2_apply _ h₂ a d

/-- A projection of the tile: row r of x against row d of w. -/
theorem pay3_apply (x : Vec Ideal S1x2048x1024 .f32) (w : Vec Ideal S64x1024 .f32) (r : Fin 2048) (d : Fin 64) :
    k0_pay3 (F := Ideal) x w (ix2 r d) = ∑ a : Fin 1024, x (ix3 (0 : Fin 1) r a) * w (ix2 d a) := by
  unfold k0_pay3
  refine (congrFun (shapeCast_self _ _) _).trans ?_
  refine (LibDot.matmul_zero_plain _ rfl rfl rfl rfl rfl rfl none _ _ r d).trans ?_
  refine Finset.sum_congr rfl fun a _ => ?_
  exact congrArg₂ (· * ·) (pay2_apply x r a) (wT_apply w _ _ a d)

/-- The scaled context against the output weights: the leading unit axis is added back without moving an element. -/
theorem pay5_apply (q : Vec Ideal S2048x64 .f32) (E : Vec Ideal S64x64 .f32) (wo : Vec Ideal S1024x64 .f32)
    (r : Fin 2048) (j : Fin 1024) :
    k0_pay5 (F := Ideal) q E wo (ix3 (0 : Fin 1) r j)
      = ∑ e : Fin 64, ((∑ d : Fin 64, q (ix2 r d) * E (ix2 d e)) * Ideal.ofBits .f32 0x3E5DB3D7#32) * wo (ix2 j e) := by
  unfold k0_pay5
  refine (shapeCast_ab_1ab_apply _ _ (0 : Fin 1) r j).trans ?_
  refine (LibDot.matmul_zero_plain _ rfl rfl rfl rfl rfl rfl none _ _ r j).trans ?_
  refine Finset.sum_congr rfl fun e _ => ?_
  refine congrArg₂ (· * ·) ?_ (transpose_ix2_apply wo _ e j)
  refine (mulf_apply _ _ _).trans ?_
  exact congrArg₂ (· * ·) (LibDot.matmul_zero_plain _ rfl rfl rfl rfl rfl rfl none q E r e) rfl

/-- A projection of the tile as the kernel forms it inside the energy update. -/
theorem proj_apply (x : Vec Ideal S1x2048x1024 .f32) (w : Vec Ideal S64x1024 .f32) (h₁ : FTy.bits .bf16 < FTy.bits .f32)
    (h₂ : S64x1024.Transposes [1, 0] S1024x64) (r : Fin 2048) (d : Fin 64) :
    matmul dot_S2048x1024_S1024x64_S2048x64_1_0_0_1_n_n none (k0_pay2 (F := Ideal) x)
        (transpose S1024x64 [1, 0] (truncf (F := Ideal) .bf16 w h₁) h₂) (constant S2048x64 .f32 0x00000000#32) (ix2 r d)
      = ∑ a : Fin 1024, x (ix3 (0 : Fin 1) r a) * w (ix2 d a) := by
  refine (LibDot.matmul_zero_plain _ rfl rfl rfl rfl rfl rfl none _ _ r d).trans ?_
  refine Finset.sum_congr rfl fun a _ => ?_
  exact congrArg₂ (· * ·) (pay2_apply x r a) (wT_apply w _ _ a d)

/-- The energy update: the running energy plus the tile's Kᵀ V. -/
theorem pay4_apply (x : Vec Ideal S1x2048x1024 .f32) (wk wv : Vec Ideal S64x1024 .f32) (E : Vec Ideal S64x64 .f32)
    (d e : Fin 64) :
    k0_pay4 (F := Ideal) x wk wv E (ix2 d e)
      = E (ix2 d e) + ∑ r : Fin 2048, (∑ a : Fin 1024, x (ix3 (0 : Fin 1) r a) * wk (ix2 d a))
          * (∑ a : Fin 1024, x (ix3 (0 : Fin 1) r a) * wv (ix2 e a)) := by
  unfold k0_pay4
  refine (congrFun (shapeCast_self _ _) _).trans ?_
  refine (addf_apply _ _ _).trans ?_
  refine congrArg (E (ix2 d e) + ·) ?_
  refine (LibDot.matmul_zero_plain _ rfl rfl rfl rfl rfl rfl none _ _ d e).trans ?_
  refine Finset.sum_congr rfl fun r _ => ?_
  refine congrArg₂ (· * ·) ?_ (proj_apply x wv _ _ r e)
  exact (transpose_ix2_apply _ _ d r).trans (proj_apply x wk _ _ r d)

end Cert.KernelIdeal.Pay

end
-- ==== Proof.LibTileSum.lean ====
/-
  A sum over T·R consecutive indices, regrouped into T tiles of R: the sum over n < T·R of f n is the sum over the tiles
  t < T of the sums over the rows r < R of f (R·t + r). A reordering of a finite sum in a commutative monoid: it holds
  on the extended reals with no finiteness condition.
-/
import Mathlib.Algebra.BigOperators.Fin
import Mathlib.Logic.Equiv.Fin.Basic

open scoped BigOperators

namespace LibTileSum

/-- A sum over T·R indices is the sum over T tiles of the sums over their R rows. -/
theorem sum_tiles {M : Type*} [AddCommMonoid M] (T R : ℕ) (f : Fin (T * R) → M) :
    ∑ n : Fin (T * R), f n
      = ∑ t : Fin T, ∑ r : Fin R, f ⟨R * t.val + r.val, by
          have ht := t.isLt; have hr := r.isLt
          have h1 : R * (t.val + 1) ≤ R * T := Nat.mul_le_mul_left _ ht
          rw [Nat.mul_succ] at h1
          rw [Nat.mul_comm T R]; omega⟩ := by
  rw [← Equiv.sum_comp finProdFinEquiv f, Fintype.sum_prod_type]
  refine Finset.sum_congr rfl fun t _ => Finset.sum_congr rfl fun r _ => congrArg f (Fin.ext ?_)
  show r.val + R * t.val = R * t.val + r.val
  omega

end LibTileSum
-- ==== Proof.Spec.lean ====
/-
  Linear attention over one batch of sequences, as functions of the five argument arrays on the extended reals.

  For x : [4, 8192, 1024] and projection matrices wq, wk, wv : [64, 1024], wo : [1024, 64]:
    proj x w b n d      = Σ_e x[b, n, e] · w[d, e]                           (a row of x against a row of w)
    energy b d e        = Σ_n proj x wk b n d · proj x wv b n e               (Kᵀ V, summed over the whole sequence)
    ctx b n e           = (Σ_d proj x wq b n d · energy b d e) · scale        (Q · energy, scaled)
    out b n j           = Σ_e ctx b n e · wo[j, e]                            (the output projection)
  The same energy accumulated tile by tile — four tiles of 2048 rows, starting from zero — is `accEnergy 4`;
  `accEnergy_four` says it is `energy`: a regrouping of one finite sum in a commutative monoid, so it holds at every
  extended real, infinite ones included.
-/
import Idealize.ShloMosaic.Lib.ValueIdx
import Idealize.ShloMosaic.PureOps.Ideal
import proofs.«135907_j39986145526411_2_alg».proof.Proof.LibTileSum

noncomputable section

namespace Cert.LinAttn

open Idealize.ShloMosaic Idealize.ShloMosaic.ValueIdx

abbrev SX : Shape := ⟨3, ![4, 8192, 1024]⟩
abbrev SW : Shape := ⟨2, ![64, 1024]⟩
abbrev SO : Shape := ⟨2, ![1024, 64]⟩

/-- The scale √(3/64) as the binary32 value both programs carry. -/
def scale : EReal := Ideal.ofBits .f32 0x3E5DB3D7#32

/-- Row n of batch b of x against row d of w. -/
def proj (x : SX.Idx → EReal) (w : SW.Idx → EReal) (b : Fin 4) (n : Fin 8192) (d : Fin 64) : EReal :=
  ∑ e : Fin 1024, x (ix3 b n e) * w (ix2 d e)

/-- Kᵀ V of batch b, summed over the whole sequence. -/
def energy (x : SX.Idx → EReal) (wk wv : SW.Idx → EReal) (b : Fin 4) (d e : Fin 64) : EReal :=
  ∑ n : Fin 8192, proj x wk b n d * proj x wv b n e

/-- (Q · energy) · scale at row n. -/
def ctx (x : SX.Idx → EReal) (wq wk wv : SW.Idx → EReal) (b : Fin 4) (n : Fin 8192) (e : Fin 64) : EReal :=
  (∑ d : Fin 64, proj x wq b n d * energy x wk wv b d e) * scale

/-- The output projection. -/
def out (x : SX.Idx → EReal) (wq wk wv : SW.Idx → EReal) (wo : SO.Idx → EReal) (b : Fin 4) (n : Fin 8192) (j : Fin 1024) : EReal :=
  ∑ e : Fin 64, ctx x wq wk wv b n e * wo (ix2 j e)

/-- The whole result array. -/
def G (x : SX.Idx → EReal) (wq wk wv : SW.Idx → EReal) (wo : SO.Idx → EReal) : SX.Idx → EReal := fun i =>
  out x wq wk wv wo ⟨(i 0).val, (i 0).isLt⟩ ⟨(i 1).val, (i 1).isLt⟩ ⟨(i 2).val, (i 2).isLt⟩

/-- Row r of tile t of the sequence. -/
def tileRow (t : Fin 4) (r : Fin 2048) : Fin 8192 := ⟨2048 * t.val + r.val, by have := t.isLt; have := r.isLt; omega⟩

/-- Kᵀ V over the 2048 rows of tile t alone. -/
def tileEnergy (x : SX.Idx → EReal) (wk wv : SW.Idx → EReal) (b : Fin 4) (t : Fin 4) (d e : Fin 64) : EReal :=
  ∑ r : Fin 2048, proj x wk b (tileRow t r) d * proj x wv b (tileRow t r) e

/-- The energy accumulated over the first k tiles, from zero, one tile added at a time (on the right). -/
def accEnergy (x : SX.Idx → EReal) (wk wv : SW.Idx → EReal) (b : Fin 4) : ℕ → Fin 64 → Fin 64 → EReal
  | 0, _, _ => 0
  | k + 1, d, e => if h : k < 4 then accEnergy x wk wv b k d e + tileEnergy x wk wv b ⟨k, h⟩ d e else accEnergy x wk wv b k d e

end Cert.LinAttn

end
-- ==== Proof.TileLaw.lean ====
/-
  The energy accumulated tile by tile is the energy summed over the whole sequence.

  The sequence of 8192 rows is four tiles of 2048 rows; row r of tile t is row 2048·t + r. Summing Kᵀ V over each
  tile and adding the four tile sums to zero, one at a time, gives the sum over all 8192 rows: a regrouping of one
  finite sum in a commutative monoid, so it holds at every extended real, with no finiteness condition.
-/
import proofs.«135907_j39986145526411_2_alg».proof.Proof.Spec
import proofs.«135907_j39986145526411_2_alg».proof.Proof.LibTileSum

noncomputable section

namespace Cert.LinAttn

open Idealize.ShloMosaic Idealize.ShloMosaic.ValueIdx

/-- Before any tile is added the accumulator is zero. -/
theorem accEnergy_zero (x : SX.Idx → EReal) (wk wv : SW.Idx → EReal) (b : Fin 4) (d e : Fin 64) :
    accEnergy x wk wv b 0 d e = 0 := rfl

/-- Adding tile k (k < 4) to the energy of the first k tiles gives the energy of the first k + 1 tiles. -/
theorem accEnergy_succ (x : SX.Idx → EReal) (wk wv : SW.Idx → EReal) (b : Fin 4) (k : ℕ) (h : k < 4) (d e : Fin 64) :
    accEnergy x wk wv b (k + 1) d e = accEnergy x wk wv b k d e + tileEnergy x wk wv b ⟨k, h⟩ d e := by
  simp only [accEnergy, dif_pos h]

/-- The four tile energies, added to zero one at a time, are the energy of the whole sequence. -/
theorem accEnergy_four (x : SX.Idx → EReal) (wk wv : SW.Idx → EReal) (b : Fin 4) (d e : Fin 64) :
    accEnergy x wk wv b 4 d e = energy x wk wv b d e := by
  rw [accEnergy_succ x wk wv b 3 (by omega), accEnergy_succ x wk wv b 2 (by omega),
    accEnergy_succ x wk wv b 1 (by omega), accEnergy_succ x wk wv b 0 (by omega), accEnergy_zero, zero_add]
  have h := LibTileSum.sum_tiles 4 2048 (fun n : Fin (4 * 2048) => proj x wk b n d * proj x wv b n e)
  rw [Fin.sum_univ_four] at h
  exact h.symm

end Cert.LinAttn

end
-- ==== Proof.Value.lean ====
/-
  What the kernel's result array holds after the run, on the extended reals.

  A first-phase point s = 8 b + k reads rows [2048 k, 2048 k + 2048) of batch b of x and the four weight matrices whole; a
  second-phase point t = 8 b + 4 + n writes rows [2048 n, 2048 n + 2048) of batch b of the result. By induction on the
  point the energy accumulator after point 8 b + k is the energy of the first k + 1 tiles of batch b, so through the
  second phase it is the whole energy: adding the tiles one at a time regroups one finite sum. What the second-phase
  point t leaves in the output block is then, entry by entry, the specification's `out` at batch b and the block's rows;
  the second-phase points' blocks tile the result array.
-/
import proofs.«135907_j39986145526411_2_alg».proof.Proof.Data
import proofs.«135907_j39986145526411_2_alg».proof.Proof.Payloads
import proofs.«135907_j39986145526411_2_alg».proof.Proof.TileLaw
import Idealize.ShloMosaic.Lib.Pipeline.Value

set_option maxRecDepth 16384

noncomputable section

namespace Cert.KernelIdeal.Hand

open Cert.KernelIdeal Cert.KernelIdeal.Gen Cert.KernelIdeal.Pay Cert.LinAttn
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The index maps, decided over the grid -/

/-- A first-phase point reads batch t / 8, tile t mod 4 of x. -/
theorem idx_x : ∀ t : Fin cfg0.N, t.val / 4 % 2 = 0 →
    win0_0.index t (0 : Fin 3) = t.val / 8 ∧ win0_0.index t (1 : Fin 3) = t.val % 4 ∧ win0_0.index t (2 : Fin 3) = 0 :=
  (by decide +kernel : ∀ t : Fin grid0.N, t.val / 4 % 2 = 0 →
    win0_0.index t (0 : Fin 3) = t.val / 8 ∧ win0_0.index t (1 : Fin 3) = t.val % 4 ∧ win0_0.index t (2 : Fin 3) = 0)
/-- The weights' windows stay at block zero. -/
theorem idx_w : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)
/-- A second-phase point writes batch t / 8, tile t mod 4 of the result, and writes it back. -/
theorem idx_o : ∀ t : Fin cfg0.N, ¬t.val / 4 % 2 = 0 →
    win0_5.index t (0 : Fin 3) = t.val / 8 ∧ win0_5.index t (1 : Fin 3) = t.val % 4 ∧ win0_5.index t (2 : Fin 3) = 0 :=
  (by decide +kernel : ∀ t : Fin grid0.N, ¬t.val / 4 % 2 = 0 →
    win0_5.index t (0 : Fin 3) = t.val / 8 ∧ win0_5.index t (1 : Fin 3) = t.val % 4 ∧ win0_5.index t (2 : Fin 3) = 0)
theorem flush5 : ∀ t : Fin cfg0.N, ¬t.val / 4 % 2 = 0 → (cfg0.win 5).flush t = true :=
  (by decide +kernel : ∀ t : Fin grid0.N, ¬t.val / 4 % 2 = 0 → win0_5.flush t = true)

/-! ## The input blocks, read off the argument arrays -/

/-- Row y₁ of the x block of first-phase point s = 8 b + k is row 2048 k + y₁ of batch b. -/
theorem xblk_apply (c : Dev nD) (s : Fin cfg0.N) (hp : s.val / 4 % 2 = 0) (b k : Fin 4) (hs : s.val = 8 * b.val + k.val)
    (y : S1x2048x1024.Idx) :
    iblk m c 0 s y = V m c main_arg0 (ix3 b (tileRow k ⟨(y 1).val, (y 1).isLt⟩) ⟨(y 2).val, (y 2).isLt⟩) := by
  show V m c main_arg0 (((cfg0.win 0).blk s).view.emb y) = _
  refine congrArg _ ?_
  obtain ⟨e0, e1, e2⟩ := idx_x s hp
  funext a; apply Fin.ext
  match a with
  | ⟨0, _⟩ => show win0_0.index s (0 : Fin 3) * 1 + 1 * (y 0).val = b.val; have hy : (y 0).val < 1 := (y 0).isLt; omega
  | ⟨1, _⟩ => show win0_0.index s (1 : Fin 3) * 2048 + 1 * (y 1).val = 2048 * k.val + (y 1).val; omega
  | ⟨2, _⟩ => show win0_0.index s (2 : Fin 3) * 1024 + 1 * (y 2).val = (y 2).val; omega

theorem wqblk_apply (c : Dev nD) (t : Fin cfg0.N) (y : S64x1024.Idx) : iblk m c 1 t y = V m c main_arg1 y := by
  show V m c main_arg1 (((cfg0.win 1).blk t).view.emb y) = _
  refine congrArg _ ?_
  obtain ⟨e0, e1, -⟩ := idx_w t
  funext a; apply Fin.ext
  match a with
  | ⟨0, _⟩ => show win0_1.index t (0 : Fin 2) * 64 + 1 * (y 0).val = (y 0).val; omega
  | ⟨1, _⟩ => show win0_1.index t (1 : Fin 2) * 1024 + 1 * (y 1).val = (y 1).val; omega

theorem wkblk_apply (c : Dev nD) (t : Fin cfg0.N) (y : S64x1024.Idx) : iblk m c 2 t y = V m c main_arg2 y := by
  show V m c main_arg2 (((cfg0.win 2).blk t).view.emb y) = _
  refine congrArg _ ?_
  obtain ⟨-, -, e0, e1, -⟩ := idx_w t
  funext a; apply Fin.ext
  match a with
  | ⟨0, _⟩ => show win0_2.index t (0 : Fin 2) * 64 + 1 * (y 0).val = (y 0).val; omega
  | ⟨1, _⟩ => show win0_2.index t (1 : Fin 2) * 1024 + 1 * (y 1).val = (y 1).val; omega

theorem wvblk_apply (c : Dev nD) (t : Fin cfg0.N) (y : S64x1024.Idx) : iblk m c 3 t y = V m c main_arg3 y := by
  show V m c main_arg3 (((cfg0.win 3).blk t).view.emb y) = _
  refine congrArg _ ?_
  obtain ⟨-, -, -, -, e0, e1, -⟩ := idx_w t
  funext a; apply Fin.ext
  match a with
  | ⟨0, _⟩ => show win0_3.index t (0 : Fin 2) * 64 + 1 * (y 0).val = (y 0).val; omega
  | ⟨1, _⟩ => show win0_3.index t (1 : Fin 2) * 1024 + 1 * (y 1).val = (y 1).val; omega

theorem woblk_apply (c : Dev nD) (t : Fin cfg0.N) (y : S1024x64.Idx) : iblk m c 4 t y = V m c main_arg4 y := by
  show V m c main_arg4 (((cfg0.win 4).blk t).view.emb y) = _
  refine congrArg _ ?_
  obtain ⟨-, -, -, -, -, -, e0, e1⟩ := idx_w t
  funext a; apply Fin.ext
  match a with
  | ⟨0, _⟩ => show win0_4.index t (0 : Fin 2) * 1024 + 1 * (y 0).val = (y 0).val; omega
  | ⟨1, _⟩ => show win0_4.index t (1 : Fin 2) * 64 + 1 * (y 1).val = (y 1).val; omega

/-- A row of a first-phase point's block of x against a row of a weight block is the specification's projection. -/
theorem proj_blk (c : Dev nD) (s : Fin cfg0.N) (hp : s.val / 4 % 2 = 0) (b k : Fin 4) (hs : s.val = 8 * b.val + k.val)
    (xs : Vec Ideal S1x2048x1024 .f32) (hx : xs = iblk m c 0 s) (W : S64x1024.Idx → EReal) (r : Fin 2048) (d : Fin 64) :
    ∑ a : Fin 1024, xs (ix3 0 r a) * W (ix2 d a) = proj (V m c main_arg0) W b (tileRow k r) d := by
  subst hx
  unfold proj
  refine Finset.sum_congr rfl fun a _ => ?_
  rw [xblk_apply m c s hp b k hs]

/-- The tile's contribution Kᵀ V, over the point's blocks, is the specification's. -/
theorem tile_blk (c : Dev nD) (s : Fin cfg0.N) (hp : s.val / 4 % 2 = 0) (b k : Fin 4) (hs : s.val = 8 * b.val + k.val)
    (xs : Vec Ideal S1x2048x1024 .f32) (hx : xs = iblk m c 0 s) (Wk Wv : S64x1024.Idx → EReal) (d e : Fin 64) :
    ∑ r : Fin 2048, (∑ a : Fin 1024, xs (ix3 0 r a) * Wk (ix2 d a)) * (∑ a : Fin 1024, xs (ix3 0 r a) * Wv (ix2 e a))
      = tileEnergy (V m c main_arg0) Wk Wv b k d e := by
  unfold tileEnergy
  refine Finset.sum_congr rfl fun r _ => ?_
  rw [proj_blk m c s hp b k hs xs hx Wk r d, proj_blk m c s hp b k hs xs hx Wv r e]

/-! ## The energy accumulator, point by point -/

/-- After point n of batch b the accumulator holds the energy of the tiles seen so far: n mod 4 + 1 of them through the first
    phase, all four through the second. -/
theorem eAt_spec (c : Dev nD) (b : Fin 4) : ∀ (n : ℕ) (hn : n < cfg0.N), n / 8 = b.val → ∀ d e : Fin 64,
    eAt m c n hn (ix2 d e)
      = accEnergy (V m c main_arg0) (V m c main_arg2) (V m c main_arg3) b (if n / 4 % 2 = 0 then n % 4 + 1 else 4) d e := by
  intro n
  induction n with
  | zero =>
    intro hn hb d e
    have hb0 : b.val = 0 := by omega
    have hp0 : (⟨0, hn⟩ : Fin cfg0.N).val / 4 % 2 = 0 := by show (0 : ℕ) / 4 % 2 = 0; decide
    have hi0 : (⟨0, hn⟩ : Fin cfg0.N).val % 8 = 0 := by show (0 : ℕ) % 8 = 0; decide
    refine (congrFun (eAt_init m c ⟨0, hn⟩ hp0 hi0) (ix2 d e)).trans ?_
    rw [pay4_apply, pay1_apply]
    simp only [wkblk_apply, wvblk_apply]
    rw [tile_blk m c ⟨0, hn⟩ hp0 b ⟨0, by decide⟩ (by show 0 = 8 * b.val + 0; omega) _ rfl]
    show _ = accEnergy _ _ _ b (0 + 1) d e
    rw [accEnergy_succ _ _ _ _ 0 (by decide), accEnergy_zero]
  | succ n ih =>
    intro hn hb d e
    have hN : n + 1 < 32 := lt_of_lt_of_eq hn (show cfg0.N = 32 from N_0)
    by_cases hp : (n + 1) / 4 % 2 = 0
    · rw [if_pos hp]
      have hk : (n + 1) % 4 < 4 := Nat.mod_lt _ (by decide)
      have hs : (⟨n + 1, hn⟩ : Fin cfg0.N).val = 8 * b.val + (⟨(n + 1) % 4, hk⟩ : Fin 4).val := by
        show n + 1 = 8 * b.val + (n + 1) % 4; omega
      by_cases hi : (n + 1) % 8 = 0
      · refine (congrFun (eAt_init m c ⟨n + 1, hn⟩ hp hi) (ix2 d e)).trans ?_
        rw [pay4_apply, pay1_apply]
        simp only [wkblk_apply, wvblk_apply]
        rw [tile_blk m c ⟨n + 1, hn⟩ hp b ⟨(n + 1) % 4, hk⟩ hs _ rfl]
        have h0 : (n + 1) % 4 = 0 := by omega
        rw [accEnergy_succ _ _ _ _ ((n + 1) % 4) hk]
        congr 1
        rw [h0]; exact (accEnergy_zero _ _ _ _ _ _).symm
      · refine (congrFun (eAt_acc m c ⟨n + 1, hn⟩ hp hi) (ix2 d e)).trans ?_
        rw [pay4_apply]
        simp only [wkblk_apply, wvblk_apply]
        rw [tile_blk m c ⟨n + 1, hn⟩ hp b ⟨(n + 1) % 4, hk⟩ hs _ rfl, accEnergy_succ _ _ _ _ ((n + 1) % 4) hk]
        congr 1
        have := ih (Nat.lt_of_succ_lt hn) (by omega) d e
        rw [if_pos (by omega)] at this
        rw [show (n + 1) % 4 = n % 4 + 1 by omega]
        exact this
    · rw [if_neg hp]
      refine (congrFun (eAt_keep m c ⟨n + 1, hn⟩ hp) (ix2 d e)).trans ?_
      have := ih (Nat.lt_of_succ_lt hn) (by omega) d e
      by_cases hq : n / 4 % 2 = 0
      · rw [if_pos hq] at this
        rw [show (4 : ℕ) = n % 4 + 1 by omega]
        exact this
      · rw [if_neg hq] at this
        exact this

/-- Through a batch's second phase the accumulator is the whole energy of the batch. -/
theorem eAt_energy (c : Dev nD) (t : Fin cfg0.N) (hp : ¬t.val / 4 % 2 = 0) (b : Fin 4) (hb : t.val / 8 = b.val) (d e : Fin 64) :
    eAt m c t.val t.isLt (ix2 d e) = energy (V m c main_arg0) (V m c main_arg2) (V m c main_arg3) b d e := by
  rw [eAt_spec m c b t.val t.isLt hb d e, if_neg hp, accEnergy_four]

/-! ## What a second-phase point writes back -/

/-- Entry (r, j) of the output block of second-phase point t = 8 b + 4 + n is the specification's `out` at batch b, row
    2048 n + r, column j. -/
theorem outAt_apply (c : Dev nD) (t : Fin cfg0.N) (hp : ¬t.val / 4 % 2 = 0) (b n : Fin 4) (ht : t.val = 8 * b.val + 4 + n.val)
    (r : Fin 2048) (j : Fin 1024) :
    outAt m c t.val t.isLt (ix3 0 r j)
      = out (V m c main_arg0) (V m c main_arg1) (V m c main_arg2) (V m c main_arg3) (V m c main_arg4) b (tileRow n r) j := by
  have hN : t.val < 32 := lt_of_lt_of_eq t.isLt (show cfg0.N = 32 from N_0)
  unfold outAt
  rw [pay5_apply]
  unfold out ctx
  refine Finset.sum_congr rfl fun e _ => ?_
  rw [woblk_apply]
  congr 1
  show _ * Ideal.ofBits .f32 0x3E5DB3D7#32 = _ * Ideal.ofBits .f32 0x3E5DB3D7#32
  congr 1
  refine Finset.sum_congr rfl fun d _ => ?_
  rw [eAt_energy m c t hp b (by omega) d e, pay3_apply]
  congr 1
  simp only [wqblk_apply]
  exact proj_blk m c ⟨t.val - 4, Nat.lt_of_le_of_lt (Nat.sub_le _ _) t.isLt⟩ (by show (t.val - 4) / 4 % 2 = 0; omega) b n
    (by show t.val - 4 = 8 * b.val + n.val; omega) _ rfl (V m c main_arg1) r d

/-- What a point that writes its block back writes is its block of the specification's result. -/
theorem flushed_eq (c : Dev nD) (t : Fin cfg0.N) (hf : (cfg0.win 5).flush t = true) :
    (dats m 0 c).flushed 5 t
      = ((cfg0.win 5).blk t).view.read (Elt Ideal) (G (V m c main_arg0) (V m c main_arg1) (V m c main_arg2) (V m c main_arg3) (V m c main_arg4)) := by
  have hN : t.val < 32 := lt_of_lt_of_eq t.isLt (show cfg0.N = 32 from N_0)
  have hp : ¬t.val / 4 % 2 = 0 := fun h => by rw [noFlush5 t h] at hf; exact Bool.noConfusion hf
  show (cfg0.win 5).cut (grid0.coords t) ((dats m 0 c).after 5 t) = _
  rw [after5]
  funext y
  obtain ⟨z, r, j, rfl⟩ : ∃ (z : Fin 1) (r : Fin 2048) (j : Fin 1024), y = ix3 z r j := ⟨y 0, y 1, y 2, eq_ix3 y⟩
  obtain rfl : z = 0 := Subsingleton.elim _ _
  obtain ⟨e0, e1, e2⟩ := idx_o t hp
  have hb : t.val / 8 < 4 := by omega
  have hn : t.val % 4 < 4 := Nat.mod_lt _ (by decide)
  have hi : ((cfg0.win 5).blk t).view.emb (ix3 (0 : Fin 1) r j) = ix3 (⟨t.val / 8, hb⟩ : Fin 4) (tileRow ⟨t.val % 4, hn⟩ r) j := by
    funext a; apply Fin.ext
    match a with
    | ⟨0, _⟩ => show win0_5.index t (0 : Fin 3) * 1 + 1 * 0 = t.val / 8; omega
    | ⟨1, _⟩ => show win0_5.index t (1 : Fin 3) * 2048 + 1 * r.val = 2048 * (t.val % 4) + r.val; omega
    | ⟨2, _⟩ => show win0_5.index t (2 : Fin 3) * 1024 + 1 * j.val = j.val; omega
  show outAt m c t.val t.isLt (ix3 0 r j) = G _ _ _ _ _ (((cfg0.win 5).blk t).view.emb (ix3 (0 : Fin 1) r j))
  rw [hi, outAt_apply m c t hp ⟨t.val / 8, hb⟩ ⟨t.val % 4, hn⟩ (by show t.val = 8 * (t.val / 8) + 4 + t.val % 4; omega) r j]
  rfl

/-- An index of the result array is in point t's block iff each coordinate is in the block's range. -/
theorem mem_blk (t : Fin cfg0.N) (i : S4x8192x1024.Idx) :
    i ∈ ((cfg0.win 5).blk t).view.set ↔ ∀ a : Fin 3, win0_5.index t a * S1x2048x1024.size a ≤ (i a).val ∧ (i a).val < win0_5.index t a * S1x2048x1024.size a + S1x2048x1024.size a := by
  show i ∈ ((View.whole main_v0).slice (win0_5.rect t)).set ↔ _
  rw [View.set_slice_whole, Rect.mem_set_unit]
  exact Iff.rfl

/-- The second-phase points' blocks tile the result array. -/
theorem cover (i : S4x8192x1024.Idx) : ∃ t : Fin cfg0.N, (cfg0.win 5).flush t = true ∧ i ∈ ((cfg0.win 5).blk t).view.set := by
  have h0 : (i 0).val < 4 := (i 0).isLt
  have h1 : (i 1).val < 8192 := (i 1).isLt
  have h2 : (i 2).val < 1024 := (i 2).isLt
  have hN : cfg0.N = 32 := N_0
  have ht : 8 * (i 0).val + 4 + (i 1).val / 2048 < cfg0.N := by rw [hN]; omega
  have hp : ¬(⟨8 * (i 0).val + 4 + (i 1).val / 2048, ht⟩ : Fin cfg0.N).val / 4 % 2 = 0 := by
    show ¬(8 * (i 0).val + 4 + (i 1).val / 2048) / 4 % 2 = 0; omega
  refine ⟨⟨8 * (i 0).val + 4 + (i 1).val / 2048, ht⟩, flush5 _ hp, ?_⟩
  obtain ⟨e0, e1, e2⟩ := idx_o _ hp
  rw [mem_blk]
  intro a
  match a with
  | ⟨0, _⟩ =>
    show win0_5.index _ (0 : Fin 3) * 1 ≤ (i 0).val ∧ (i 0).val < win0_5.index _ (0 : Fin 3) * 1 + 1
    rw [e0]; show (8 * (i 0).val + 4 + (i 1).val / 2048) / 8 * 1 ≤ (i 0).val ∧ (i 0).val < (8 * (i 0).val + 4 + (i 1).val / 2048) / 8 * 1 + 1; omega
  | ⟨1, _⟩ =>
    show win0_5.index _ (1 : Fin 3) * 2048 ≤ (i 1).val ∧ (i 1).val < win0_5.index _ (1 : Fin 3) * 2048 + 2048
    rw [e1]; show (8 * (i 0).val + 4 + (i 1).val / 2048) % 4 * 2048 ≤ (i 1).val ∧ (i 1).val < (8 * (i 0).val + 4 + (i 1).val / 2048) % 4 * 2048 + 2048; omega
  | ⟨2, _⟩ =>
    show win0_5.index _ (2 : Fin 3) * 1024 ≤ (i 2).val ∧ (i 2).val < win0_5.index _ (2 : Fin 3) * 1024 + 1024
    rw [e2]; omega

/-- The result array after the run is the specification's function of the argument arrays. -/
theorem final (c : Dev nD) :
    (dats m 0 c).arrAt 5 cfg0.N = G (V m c main_arg0) (V m c main_arg1) (V m c main_arg2) (V m c main_arg3) (V m c main_arg4) :=
  (dats m 0 c).arrAt_eq_of_cover 5 _ (fun t hf => flushed_eq m c t hf) cover

/-- The run, read: the result at the specification's function of the arguments as launched, the arguments unchanged. -/
theorem run : θ_run defs (onTc (τ := τ) (main (F := Ideal))) ⟨m, fun _ => 0, ρ⟩ fun r => ∀ c : Dev nD,
      r.2.mem ((c.tc : Thread nD τ).loc main_v0)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final m c),
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3)),
      ((h c).1 4).trans (((dats m 0 c).arrAt_in 4 rfl _).trans (A_eq m c 4))⟩)
    (run_main m ρ)

end Cert.KernelIdeal.Hand

end
-- ==== Proof.RefValue.lean ====
/-
  The reference program read as one function of its five arguments.

  The reference computes, one array operation at a time: the three projections Q = x·wqᵀ, K = x·wkᵀ, V = x·wvᵀ (each
  a contraction over the 1024 features), the energy KᵀV (a contraction over the 8192 rows of the sequence, batch by
  batch), Q·energy (a contraction over 64), the product with the scale, and the output projection against wo (a
  contraction over 64). Each operation's element at an index is a finite sum of products of its operands' elements, so
  reading the result at an index (b, n, j) and unfolding operation by operation gives exactly the nested sums of the
  specification. Nothing is reordered: the equality is termwise.
-/
import proofs.«135907_j39986145526411_2_alg».proof.Proof.Gen.ReferenceIdeal.Read
import proofs.«135907_j39986145526411_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.LinAttn

/-- Q (and likewise K, V): the first projection at (b, n, d) is row n of batch b of x against row d of the weights. -/
theorem v0_at (x0 : (⟨S4x8192x1024, .f32⟩ : BufTy).Contents (Elt Ideal)) (x1 : (⟨S64x1024, .f32⟩ : BufTy).Contents (Elt Ideal))
    (b : Fin 4) (n : Fin 8192) (d : Fin 64) :
    val_main_v0 (F := Ideal) x0 x1 (ix3 b n d) = proj x0 x1 b n d := by
  refine (val_main_v0_apply x0 x1 (ix3 b n d)).trans ?_
  refine Finset.sum_congr rfl fun k _ => ?_
  have el : lidx_main_v0 (ix3 b n d) k = ix3 b n k := funext fun a => by
    match a with | ⟨0, _⟩ => rfl | ⟨1, _⟩ => rfl | ⟨2, _⟩ => rfl
  have er : ridx_main_v0 (ix3 b n d) k = ix2 d k := funext fun a => by
    match a with | ⟨0, _⟩ => rfl | ⟨1, _⟩ => rfl
  rw [el, er]

theorem v1_at (x0 : (⟨S4x8192x1024, .f32⟩ : BufTy).Contents (Elt Ideal)) (x2 : (⟨S64x1024, .f32⟩ : BufTy).Contents (Elt Ideal))
    (b : Fin 4) (n : Fin 8192) (d : Fin 64) :
    val_main_v1 (F := Ideal) x0 x2 (ix3 b n d) = proj x0 x2 b n d := by
  refine (val_main_v1_apply x0 x2 (ix3 b n d)).trans ?_
  refine Finset.sum_congr rfl fun k _ => ?_
  have el : lidx_main_v1 (ix3 b n d) k = ix3 b n k := funext fun a => by
    match a with | ⟨0, _⟩ => rfl | ⟨1, _⟩ => rfl | ⟨2, _⟩ => rfl
  have er : ridx_main_v1 (ix3 b n d) k = ix2 d k := funext fun a => by
    match a with | ⟨0, _⟩ => rfl | ⟨1, _⟩ => rfl
  rw [el, er]

theorem v2_at (x0 : (⟨S4x8192x1024, .f32⟩ : BufTy).Contents (Elt Ideal)) (x3 : (⟨S64x1024, .f32⟩ : BufTy).Contents (Elt Ideal))
    (b : Fin 4) (n : Fin 8192) (d : Fin 64) :
    val_main_v2 (F := Ideal) x0 x3 (ix3 b n d) = proj x0 x3 b n d := by
  refine (val_main_v2_apply x0 x3 (ix3 b n d)).trans ?_
  refine Finset.sum_congr rfl fun k _ => ?_
  have el : lidx_main_v2 (ix3 b n d) k = ix3 b n k := funext fun a => by
    match a with | ⟨0, _⟩ => rfl | ⟨1, _⟩ => rfl | ⟨2, _⟩ => rfl
  have er : ridx_main_v2 (ix3 b n d) k = ix2 d k := funext fun a => by
    match a with | ⟨0, _⟩ => rfl | ⟨1, _⟩ => rfl
  rw [el, er]

/-- KᵀV at (b, d, e): the sum over the rows n of the sequence of K[b, n, d] · V[b, n, e]. -/
theorem v3_at (x0 : (⟨S4x8192x1024, .f32⟩ : BufTy).Contents (Elt Ideal)) (x2 x3 : (⟨S64x1024, .f32⟩ : BufTy).Contents (Elt Ideal))
    (b : Fin 4) (d e : Fin 64) :
    val_main_v3 (F := Ideal) x0 x2 x3 (ix3 b d e) = energy x0 x2 x3 b d e := by
  refine (val_main_v3_apply x0 x2 x3 (ix3 b d e)).trans ?_
  refine Finset.sum_congr rfl fun k _ => ?_
  have el : lidx_main_v3 (ix3 b d e) k = ix3 b k d := funext fun a => by
    match a with | ⟨0, _⟩ => rfl | ⟨1, _⟩ => rfl | ⟨2, _⟩ => rfl
  have er : ridx_main_v3 (ix3 b d e) k = ix3 b k e := funext fun a => by
    match a with | ⟨0, _⟩ => rfl | ⟨1, _⟩ => rfl | ⟨2, _⟩ => rfl
  rw [el, er, v1_at, v2_at]

/-- Q · energy at (b, n, e): the sum over d of Q[b, n, d] · energy[b, d, e]. -/
theorem v4_at (x0 : (⟨S4x8192x1024, .f32⟩ : BufTy).Contents (Elt Ideal)) (x1 x2 x3 : (⟨S64x1024, .f32⟩ : BufTy).Contents (Elt Ideal))
    (b : Fin 4) (n : Fin 8192) (e : Fin 64) :
    val_main_v4 (F := Ideal) x0 x1 x2 x3 (ix3 b n e) = ∑ d : Fin 64, proj x0 x1 b n d * energy x0 x2 x3 b d e := by
  refine (val_main_v4_apply x0 x1 x2 x3 (ix3 b n e)).trans ?_
  refine Finset.sum_congr rfl fun k _ => ?_
  have el : lidx_main_v4 (ix3 b n e) k = ix3 b n k := funext fun a => by
    match a with | ⟨0, _⟩ => rfl | ⟨1, _⟩ => rfl | ⟨2, _⟩ => rfl
  have er : ridx_main_v4 (ix3 b n e) k = ix3 b k e := funext fun a => by
    match a with | ⟨0, _⟩ => rfl | ⟨1, _⟩ => rfl | ⟨2, _⟩ => rfl
  rw [el, er, v0_at, v3_at]

/-- The scaled product at (b, n, e): the broadcast constant reads the scale at every index. -/
theorem v6_at (x0 : (⟨S4x8192x1024, .f32⟩ : BufTy).Contents (Elt Ideal)) (x1 x2 x3 : (⟨S64x1024, .f32⟩ : BufTy).Contents (Elt Ideal))
    (b : Fin 4) (n : Fin 8192) (e : Fin 64) :
    val_main_v6 (F := Ideal) x0 x1 x2 x3 (ix3 b n e) = ctx x0 x1 x2 x3 b n e := by
  have h5 : val_main_v5 (F := Ideal) (ix3 b n e) = scale :=
    (val_main_v5_apply (F := Ideal) (ix3 b n e)).trans rfl
  show val_main_v4 (F := Ideal) x0 x1 x2 x3 (ix3 b n e) * val_main_v5 (F := Ideal) (ix3 b n e) = _
  rw [h5, v4_at]
  rfl

/-- The output projection at (b, n, j): the sum over e of the scaled product at (b, n, e) times wo[j, e]. -/
theorem v7_at (x0 : (⟨S4x8192x1024, .f32⟩ : BufTy).Contents (Elt Ideal)) (x1 x2 x3 : (⟨S64x1024, .f32⟩ : BufTy).Contents (Elt Ideal))
    (x4 : (⟨S1024x64, .f32⟩ : BufTy).Contents (Elt Ideal)) (b : Fin 4) (n : Fin 8192) (j : Fin 1024) :
    val_main_v7 (F := Ideal) x0 x1 x2 x3 x4 (ix3 b n j) = out x0 x1 x2 x3 x4 b n j := by
  refine (val_main_v7_apply x0 x1 x2 x3 x4 (ix3 b n j)).trans ?_
  refine Finset.sum_congr rfl fun k _ => ?_
  have el : lidx_main_v7 (ix3 b n j) k = ix3 b n k := funext fun a => by
    match a with | ⟨0, _⟩ => rfl | ⟨1, _⟩ => rfl | ⟨2, _⟩ => rfl
  have er : ridx_main_v7 (ix3 b n j) k = ix2 j k := funext fun a => by
    match a with | ⟨0, _⟩ => rfl | ⟨1, _⟩ => rfl
  rw [el, er, v6_at]

/-- The reference's result, as a function of its five arguments, is the specification's linear attention. -/
theorem ref_eq (x0 : (⟨S4x8192x1024, .f32⟩ : BufTy).Contents (Elt Ideal)) (x1 x2 x3 : (⟨S64x1024, .f32⟩ : BufTy).Contents (Elt Ideal))
    (x4 : (⟨S1024x64, .f32⟩ : BufTy).Contents (Elt Ideal)) :
    Cert.ReferenceIdeal.Read.val_main_v7 (F := Ideal) x0 x1 x2 x3 x4 = Cert.LinAttn.G x0 x1 x2 x3 x4 := by
  funext i
  have hi : i = ix3 (⟨(i 0).val, (i 0).isLt⟩ : Fin 4) (⟨(i 1).val, (i 1).isLt⟩ : Fin 8192) (⟨(i 2).val, (i 2).isLt⟩ : Fin 1024) :=
    funext fun a => by
      match a with | ⟨0, _⟩ => rfl | ⟨1, _⟩ => rfl | ⟨2, _⟩ => rfl
  refine (congrArg (val_main_v7 (F := Ideal) x0 x1 x2 x3 x4) hi).trans ?_
  exact v7_at x0 x1 x2 x3 x4 _ _ _

end Cert.ReferenceIdeal.RefValue

end
-- ==== Proof.lean ====
/-
  Linear attention in one pass over the sequence, against its reference, on the extended reals.

  Both programs compute, for x : [4, 8192, 1024], wq, wk, wv : [64, 1024] and wo : [1024, 64],
      out[b, n, j] = Σ_e ((Σ_d Q[b, n, d] · energy[b, d, e]) · scale) · wo[j, e],
      Q, K, V[b, n, d] = Σ_a x[b, n, a] · w[d, a],      energy[b, d, e] = Σ_n K[b, n, d] · V[b, n, e],
  with the same binary32 value for the scale. The reference takes each sum whole. The kernel walks a grid of 4 × 2 × 4
  points: in the first phase of a batch it projects one tile of 2048 rows at a time, keeps the query rows and adds the
  tile's Kᵀ V to an accumulator it first set to zero; in the second phase it multiplies each tile of query rows by the
  finished accumulator, by the scale and by woᵀ. A change of float format is the identity on the extended reals, a
  matrix product into a zero accumulator is the plain sum, and adding the four tiles' contributions one after the other
  is a regrouping of the one sum over the sequence — in a commutative monoid, so no finiteness of the inputs is used.

  The frames of the two kernel programs are the run of the pipeline over a body proved case by case (the first tile of a
  batch, its other first-phase points, its second-phase points), the scratch buffers' contents carried in the region's
  invariant. The idealization rewrote nothing, so it is preserved trivially. The reference's frame is its run with the
  result dropped.
-/
import proofs.«135907_j39986145526411_2_alg».proof.Defs
import proofs.«135907_j39986145526411_2_alg».proof.Proof.Gen.Kernel
import proofs.«135907_j39986145526411_2_alg».proof.Proof.Gen.KernelIdeal
import proofs.«135907_j39986145526411_2_alg».proof.Proof.Gen.ReferenceIdeal
import proofs.«135907_j39986145526411_2_alg».proof.Proof.Gen.Pre_finite_inputs
import proofs.«135907_j39986145526411_2_alg».proof.Proof.Gen.ReferenceIdeal.Run
import proofs.«135907_j39986145526411_2_alg».proof.Proof.DataBits
import proofs.«135907_j39986145526411_2_alg».proof.Proof.Value
import proofs.«135907_j39986145526411_2_alg».proof.Proof.RefValue

noncomputable section

namespace Cert.Proof

open Idealize.ShloMosaic Idealize.SL.Sem

/-- The kernel as printed runs and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories agreeing on the arguments both programs end with the result array at the one function of the arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.ReferenceIdeal.RefValue.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
